-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x64 : Shape := ⟨2, ![1024, 64]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn_part1 {F : FTy → Type} [FloatOps F] (main_v13 : IVec S_ 1) (main_v16 : IVec S1024x64 1) : IVec S_ 1 :=
  let main_c_5 : IVec S_ 1 := constantI S_ 1 1#1
  let main_v17 : IVec S_ 1 := (fun x v => Host.reduce IntOp.andi x v reducesTo_S1024x64_S_d0_1 h_S_) main_v16 main_c_5
  let main_v18 : IVec S_ 1 := andi main_v13 main_v17
  main_v18

def fn {F : FTy → Type} [FloatOps F] (main_arg0 : FVec F S8x2048x1024 .f32) (main_arg1 : FVec F S1024x64 .f32) (main_arg2 : FVec F S1024x64 .f32) (main_arg3 : FVec F S1024x64 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S1024x64 .f32 := Host.absf main_arg2
  let main_cst_2 : FVec F S_ .f32 := constant S_ .f32 0x7F800000#32
  let main_v10 : FVec F S1024x64 .f32 := broadcastInDim S1024x64 ![] bcast_S_S1024x64 main_cst_2
  let main_v11 : IVec S1024x64 1 := cmpf .olt main_v9 main_v10
  let main_c_3 : IVec S_ 1 := constantI S_ 1 1#1
  let main_v12 : IVec S_ 1 := (fun x v => Host.reduce IntOp.andi x v reducesTo_S1024x64_S_d0_1 h_S_) main_v11 main_c_3
  let main_v13 : IVec S_ 1 := andi main_v8 main_v12
  let main_v14 : FVec F S1024x64 .f32 := Host.absf main_arg3
  let main_cst_4 : FVec F S_ .f32 := constant S_ .f32 0x7F800000#32
  let main_v15 : FVec F S1024x64 .f32 := broadcastInDim S1024x64 ![] bcast_S_S1024x64 main_cst_4
  let main_v16 : IVec S1024x64 1 := cmpf .olt main_v14 main_v15
  fn_part1 (F := F) main_v13 main_v16
-- ==== Kernel.lean ====
abbrev S8x2048x1024 : Shape := ⟨3, ![8, 2048, 1024]⟩
abbrev S1024x64 : Shape := ⟨2, ![1024, 64]⟩
abbrev S8x2048x64 : Shape := ⟨3, ![8, 2048, 64]⟩
abbrev S8x2048x2048 : Shape := ⟨3, ![8, 2048, 2048]⟩
abbrev S1x2048x1024 : Shape := ⟨3, ![1, 2048, 1024]⟩
abbrev S1x256x64 : Shape := ⟨3, ![1, 256, 64]⟩
abbrev S1x256x2048 : Shape := ⟨3, ![1, 256, 2048]⟩
abbrev S2048x64 : Shape := ⟨2, ![2048, 64]⟩
abbrev S2048x1024 : Shape := ⟨2, ![2048, 1024]⟩
abbrev S1x256x1024 : Shape := ⟨3, ![1, 256, 1024]⟩
abbrev S256x1024 : Shape := ⟨2, ![256, 1024]⟩
abbrev S256x64 : Shape := ⟨2, ![256, 64]⟩
abbrev S64x2048 : Shape := ⟨2, ![64, 2048]⟩
abbrev S256x2048 : Shape := ⟨2, ![256, 2048]⟩
abbrev S256 : Shape := ⟨1, ![256]⟩
abbrev S256x1 : Shape := ⟨2, ![256, 1]⟩

abbrev nBuf : Space → Nat
  | .hbm => 6
  | .vmem => 11
  | .smem => 0
  | _ => 0

abbrev bufTy : (tb : Table) → Fin (tcTables nBuf tb) → BufTy
  | .hbm, ⟨0, _⟩ => ⟨S8x2048x1024, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S8x2048x64, .f32⟩
  | .hbm, ⟨5, _⟩ => ⟨S8x2048x2048, .f32⟩
  | .local _ .vmem, ⟨0, _⟩ => ⟨S1x2048x1024, .f32⟩
  | .local _ .vmem, ⟨1, _⟩ => ⟨S1x2048x1024, .f32⟩
  | .local _ .vmem, ⟨2, _⟩ => ⟨S1024x64, .f32⟩
  | .local _ .vmem, ⟨3, _⟩ => ⟨S1024x64, .f32⟩
  | .local _ .vmem, ⟨4, _⟩ => ⟨S1024x64, .f32⟩
  | .local _ .vmem, ⟨5, _⟩ => ⟨S1x256x64, .f32⟩
  | .local _ .vmem, ⟨6, _⟩ => ⟨S1x256x64, .f32⟩
  | .local _ .vmem, ⟨7, _⟩ => ⟨S1x256x2048, .f32⟩
  | .local _ .vmem, ⟨8, _⟩ => ⟨S1x256x2048, .f32⟩
  | .local _ .vmem, ⟨9, _⟩ => ⟨S2048x64, .bf16⟩
  | .local _ .vmem, ⟨10, _⟩ => ⟨S2048x64, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c256_i32 : BitVec 32 := 256#32
  let v3 : BitVec 32 := Scalar.muli arg1 c256_i32
  v3
def k0_off1 (i : grid0.Coords) : Fin 3 → Nat :=
  let c0 : Index := 0#32
  let arg1 : BitVec 32 := BitVec.ofNat 32 (i 1).val
  let c256_i32 : BitVec 32 := 256#32
  let v3 : BitVec 32 := Scalar.muli arg1 c256_i32
  let v4 : BitVec 32 := v3
  let v5 : Index := Scalar.indexCast v4
  let c0_1 : Index := 0#32
  ![0, v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  packedbf16_S2048x64_S2048x64_0_0 : (Rect.unit (s := S2048x64) ![0, 0] S2048x64.size inb_S2048x64_S2048x64_0_0).PackedRows (EltTy.packing .bf16)
  h_S1x256x1024 : 0 < S1x256x1024.numel
  shapeCasts_S1x256x1024_S256x1024 : S1x256x1024.ShapeCasts S256x1024
  transposes_S2048x64_p1_0_S64x2048 : S2048x64.Transposes [1, 0] S64x2048
  reduces_S256x2048_S256 : S256x2048.Reduces [1] S256
  shapeCasts_S256_S256x1 : S256.ShapeCasts S256x1
  broadcasts_S256x1_S256x2048 : S256x1.Broadcasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  shapeCasts_S256x64_S1x256x64 : S256x64.ShapeCasts S1x256x64
  dot_S2048x1024_S1024x64_S2048x64_1_0_0_1_n_n_wf : DotDims.WF S2048x1024 S1024x64 S2048x64 [1] [0] [0] [1] [] []
  dot_S256x1024_S1024x64_S256x64_1_0_0_1_n_n_wf : DotDims.WF S256x1024 S1024x64 S256x64 [1] [0] [0] [1] [] []
  dot_S256x64_S64x2048_S256x2048_1_0_0_1_n_n_wf : DotDims.WF S256x64 S64x2048 S256x2048 [1] [0] [0] [1] [] []
  dot_S256x2048_S2048x64_S256x64_1_0_0_1_n_n_wf : DotDims.WF S256x2048 S2048x64 S256x64 [1] [0] [0] [1] [] []
  hrank0 : 0 < grid0.rank
  k0_mult1_dvd : ∀ i : grid0.Coords, 256 ∣ (k0_mult1 i).toNat
  k0_off1_inb : ∀ i : grid0.Coords, ∀ a, (k0_off1 i) a + S1x256x1024.size a ≤ S1x2048x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S8x2048x1024.size a
  hwx0_0 : ∀ i : grid0.Coords, EltTy.bits .f32 = 32 ∨ (Rect.block (s := S8x2048x1024) S1x2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S1024x64.size a
  hwx0_1 : ∀ i : grid0.Coords, EltTy.bits .f32 = 32 ∨ (Rect.block (s := S1024x64) S1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S1024x64.size a
  hwx0_2 : ∀ i : grid0.Coords, EltTy.bits .f32 = 32 ∨ (Rect.block (s := S1024x64) S1024x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S1024x64.size a
  hwx0_3 : ∀ i : grid0.Coords, EltTy.bits .f32 = 32 ∨ (Rect.block (s := S1024x64) S1024x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x64.size a ≤ S8x2048x64.size a
  hwx0_4 : ∀ i : grid0.Coords, EltTy.bits .f32 = 32 ∨ (Rect.block (s := S8x2048x64) S1x256x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x2048.size a ≤ S8x2048x2048.size a
  hwx0_5 : ∀ i : grid0.Coords, EltTy.bits .f32 = 32 ∨ (Rect.block (s := S8x2048x2048) S1x256x2048.size (cc0_transform_5 i) (hinb0_5 i)).WholeWords (EltTy.packing .f32)

variable [Facts₀]

def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf
def dot_S256x1024_S1024x64_S256x64_1_0_0_1_n_n : DotDims S256x1024 S1024x64 S256x64 where
  lhsContracting := [1]
  rhsContracting := [0]
  lhsNonContracting := [0]
  rhsNonContracting := [1]
  lhsBatch := []
  rhsBatch := []
  wf := dot_S256x1024_S1024x64_S256x64_1_0_0_1_n_n_wf
def dot_S256x64_S64x2048_S256x2048_1_0_0_1_n_n : DotDims S256x64 S64x2048 S256x2048 where
  lhsContracting := [1]
  rhsContracting := [0]
  lhsNonContracting := [0]
  rhsNonContracting := [1]
  lhsBatch := []
  rhsBatch := []
  wf := dot_S256x64_S64x2048_S256x2048_1_0_0_1_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x256x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x256x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S1024x64 : Shape := ⟨2, ![1024, 64]⟩
abbrev S8x2048x64 : Shape := ⟨3, ![8, 2048, 64]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 47
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S8x2048x64, .f32⟩
  | .hbm, ⟨5, _⟩ => ⟨S8x2048x64, .f32⟩
  | .hbm, ⟨6, _⟩ => ⟨S8x2048x64, .f32⟩
  | .hbm, ⟨7, _⟩ => ⟨S8x2048x2048, .f32⟩
  | .hbm, ⟨8, _⟩ => ⟨S_, .f32⟩
  | .hbm, ⟨9, _⟩ => ⟨S8x2048x2048, .f32⟩
  | .hbm, ⟨10, _⟩ => ⟨S8x2048x2048, .f32⟩
  | .hbm, ⟨11, _⟩ => ⟨S_, .f32⟩
  | .hbm, ⟨12, _⟩ => ⟨S8x2048, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S8x2048x2048, .f32⟩
  | .hbm, ⟨18, _⟩ => ⟨S8x2048x2048, .f32⟩
  | .hbm, ⟨19, _⟩ => ⟨S8x2048x2048, .f32⟩
  | .hbm, ⟨20, _⟩ => ⟨S_, .f32⟩
  | .hbm, ⟨21, _⟩ => ⟨S8x2048, .f32⟩
  | .hbm, ⟨22, _⟩ => ⟨S8x2048x1, .f32⟩
  | .hbm, ⟨23, _⟩ => ⟨S_, .f32⟩
  | .hbm, ⟨24, _⟩ => ⟨S8x2048x1, .f32⟩
  | .hbm, ⟨25, _⟩ => ⟨S8x2048x1, .f32⟩
  | .hbm, ⟨26, _⟩ => ⟨S_, .f32⟩
  | .hbm, ⟨27, _⟩ => ⟨S8x2048x1, .f32⟩
  | .hbm, ⟨28, _⟩ => ⟨S8x2048x1, .f32⟩
  | .hbm, ⟨29, _⟩ => ⟨S8x2048x1, .f32⟩
  | .hbm, ⟨30, _⟩ => ⟨S8x2048x2048, .f32⟩
  | .hbm, ⟨31, _⟩ => ⟨S8x2048x2048, .f32⟩
  | .hbm, ⟨32, _⟩ => ⟨S_, .f32⟩
  | .hbm, ⟨33, _⟩ => ⟨S8x2048, .f32⟩
  | .hbm, ⟨34, _⟩ => ⟨S_, .f32⟩
  | .hbm, ⟨35, _⟩ => ⟨S8x2048, .f32⟩
  | .hbm, ⟨36, _⟩ => ⟨S8x2048, .f32⟩
  | .hbm, ⟨37, _⟩ => ⟨S8x2048x1, .f32⟩
  | .hbm, ⟨38, _⟩ => ⟨S8x2048x2048, .f32⟩
  | .hbm, ⟨39, _⟩ => ⟨S8x2048x2048, .f32⟩
  | .hbm, ⟨40, _⟩ => ⟨S8x2048x2048, .f32⟩
  | .hbm, ⟨41, _⟩ => ⟨S_, .f32⟩
  | .hbm, ⟨42, _⟩ => ⟨S8x2048, .f32⟩
  | .hbm, ⟨43, _⟩ => ⟨S8x2048x1, .f32⟩
  | .hbm, ⟨44, _⟩ => ⟨S8x2048x2048, .f32⟩
  | .hbm, ⟨45, _⟩ => ⟨S8x2048x2048, .f32⟩
  | .hbm, ⟨46, _⟩ => ⟨S8x2048x64, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S8x2048x1_S8x2048x2048_0_1_2 : S8x2048x1.BroadcastsInDim S8x2048x2048 (![0, 1, 2] : Fin 3 → Fin S8x2048x2048.rank)
  bcast_S_S8x2048 : S_.BroadcastsInDim S8x2048 (![] : Fin 0 → Fin S8x2048.rank)
  dot_S8x2048x1024_S1024x64_S8x2048x64_2_0_01_1_n_n_wf : DotDims.WF S8x2048x1024 S1024x64 S8x2048x64 [2] [0] [0, 1] [1] [] []
  dot_S8x2048x64_S8x2048x64_S8x2048x2048_2_2_1_1_0_0_wf : DotDims.WF S8x2048x64 S8x2048x64 S8x2048x2048 [2] [2] [1] [1] [0] [0]
  dot_S8x2048x2048_S8x2048x64_S8x2048x64_2_1_1_2_0_0_wf : DotDims.WF S8x2048x2048 S8x2048x64 S8x2048x64 [2] [1] [1] [2] [0] [0]

variable [Facts₀]

def dot_S8x2048x1024_S1024x64_S8x2048x64_2_0_01_1_n_n : DotDims S8x2048x1024 S1024x64 S8x2048x64 where
  lhsContracting := [2]
  rhsContracting := [0]
  lhsNonContracting := [0, 1]
  rhsNonContracting := [1]
  lhsBatch := []
  rhsBatch := []
  wf := dot_S8x2048x1024_S1024x64_S8x2048x64_2_0_01_1_n_n_wf
def dot_S8x2048x64_S8x2048x64_S8x2048x2048_2_2_1_1_0_0 : DotDims S8x2048x64 S8x2048x64 S8x2048x2048 where
  lhsContracting := [2]
  rhsContracting := [2]
  lhsNonContracting := [1]
  rhsNonContracting := [1]
  lhsBatch := [0]
  rhsBatch := [0]
  wf := dot_S8x2048x64_S8x2048x64_S8x2048x2048_2_2_1_1_0_0_wf
def dot_S8x2048x2048_S8x2048x64_S8x2048x64_2_1_1_2_0_0 : DotDims S8x2048x2048 S8x2048x64 S8x2048x64 where
  lhsContracting := [2]
  rhsContracting := [1]
  lhsNonContracting := [1]
  rhsNonContracting := [2]
  lhsBatch := [0]
  rhsBatch := [0]
  wf := dot_S8x2048x2048_S8x2048x64_S8x2048x64_2_1_1_2_0_0_wf

class Facts : Prop extends Facts₀ where

variable [Facts]
-- ==== Proof.Imports.lean ====
/-
  The generated value leg of the idealized kernel, and the generated run and index-by-index reading of the idealized reference,
  gathered in one place for the modules that compare the two.
-/
import proofs.«149251_j35802847380251_2_alg».proof.Proof.Gen.KernelIdeal.Value
import proofs.«149251_j35802847380251_2_alg».proof.Proof.Gen.ReferenceIdeal.Run
import proofs.«149251_j35802847380251_2_alg».proof.Proof.Gen.ReferenceIdeal.Read
-- ==== Proof.Pieces.lean ====
/-
  What one run of the kernel body leaves behind, as plain terms of what it loaded.

  A batch's first grid point (the query-tile index is 0) projects the batch's x block onto the key and value weights
  and keeps both projections whole; every point then reads the 256 rows of the x block that make its query tile,
  and stores a tile of attention probabilities and a tile of outputs.  Each store covers its whole staging buffer, so
  what the buffer holds afterwards is the stored value itself; and a load that follows a covering store of the same
  buffer reads that stored value.  So:
    at a first point the kept keys and values are the two projections of the x block, and the tiles are computed
      from the query tile, the query weights and those fresh projections;
    at a later point the kept keys and values are what the point before left, and the tiles are computed from them.
-/
import proofs.«149251_j35802847380251_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen
open Idealize.ShloMosaic Idealize.ShloMosaic.TcCoe Idealize.ShloMosaic.Tactic Idealize.SL.Sem

variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl

/-- The query tile of a point: the 256 rows of the staged x block that start at row 256 · (query-tile index). -/
def tileRows (i : grid0.Coords) (x0 : Vec F S1x2048x1024 .f32) : Vec F S1x256x1024 .f32 :=
  View.ld x0 (Rect.unit (s := S1x2048x1024) (k0_off1 i) S1x256x1024.size (k0_off1_inb i))

/-! ## A later point of a batch: keys and values as the point before left them -/

/-- The probability tile a later point stores. -/
theorem probs_later (c : Dev nD) (i : grid0.Coords) (arg2 : Memref sig .tc .vmem S1x2048x1024 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1x256x64 .f32) (harg6 : arg6.IsWhole) (arg7 : Memref sig .tc .vmem S1x256x2048 .f32) (harg7 : arg7.IsWhole) (arg8 : Memref sig .tc .vmem S2048x64 .bf16) (harg8 : arg8.IsWhole) (arg9 : Memref sig .tc .vmem S2048x64 .bf16) (harg9 : arg9.IsWhole) (hc0 : ¬cond0_0 i) (x0 : Vec F S1x2048x1024 .f32) (x1 : Vec F S1024x64 .f32) (x2 : Vec F S1024x64 .f32) (x3 : Vec F S1024x64 .f32) (xs0 xs1 : Vec F S2048x64 .bf16) :
    out0_B_5 c i arg2 harg2 arg3 harg3 arg4 harg4 arg5 harg5 arg6 harg6 arg7 harg7 arg8 harg8 arg9 harg9 hc0 x0 x1 x2 x3 xs0 xs1
      = k0_pay2 (k0_pay7 (tileRows i x0) x1 xs0) (k0_pay8 (tileRows i x0) x1 xs0) := by
  unfold out0_B_5
  rw [View.read_writes_eq_canon _ _ _ (cover0_B_5 c i arg2 harg2 arg3 harg3 arg4 harg4 arg5 harg5 arg6 harg6 arg7 harg7 arg8 harg8 arg9 harg9 hc0 x0 x1 x2 x3 xs0 xs1)]
  unfold kernelRun0_B
  dsimp only
  sl_unfold_words
  rw [View.canon_unit_zero zeros3]
  simp only [View.readAt_eq_ld, harg2.read_unread, harg3.read_unread, harg8.read_unread, harg9.read_unread,
    View.ld_unit_zero (S := S1024x64) zeros2, View.ld_unit_zero (S := S2048x64) zeros2]
  rfl

/-- The output tile a later point stores. -/
theorem outs_later (c : Dev nD) (i : grid0.Coords) (arg2 : Memref sig .tc .vmem S1x2048x1024 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1x256x64 .f32) (harg6 : arg6.IsWhole) (arg7 : Memref sig .tc .vmem S1x256x2048 .f32) (harg7 : arg7.IsWhole) (arg8 : Memref sig .tc .vmem S2048x64 .bf16) (harg8 : arg8.IsWhole) (arg9 : Memref sig .tc .vmem S2048x64 .bf16) (harg9 : arg9.IsWhole) (hc0 : ¬cond0_0 i) (x0 : Vec F S1x2048x1024 .f32) (x1 : Vec F S1024x64 .f32) (x2 : Vec F S1024x64 .f32) (x3 : Vec F S1024x64 .f32) (xs0 xs1 : Vec F S2048x64 .bf16) :
    out0_B_4 c i arg2 harg2 arg3 harg3 arg4 harg4 arg5 harg5 arg6 harg6 arg7 harg7 arg8 harg8 arg9 harg9 hc0 x0 x1 x2 x3 xs0 xs1
      = k0_pay3 xs1 (k0_pay7 (tileRows i x0) x1 xs0) (k0_pay8 (tileRows i x0) x1 xs0) := by
  unfold out0_B_4
  rw [View.read_writes_eq_canon _ _ _ (cover0_B_4 c i arg2 harg2 arg3 harg3 arg4 harg4 arg5 harg5 arg6 harg6 arg7 harg7 arg8 harg8 arg9 harg9 hc0 x0 x1 x2 x3 xs0 xs1)]
  unfold kernelRun0_B
  dsimp only
  sl_unfold_words
  rw [View.canon_unit_zero zeros3]
  simp only [View.readAt_eq_ld, harg2.read_unread, harg3.read_unread, harg8.read_unread, harg9.read_unread,
    View.ld_unit_zero (S := S1024x64) zeros2, View.ld_unit_zero (S := S2048x64) zeros2]
  rfl

/-! ## A batch's first point: keys and values projected afresh -/

/-- The keys a first point keeps. -/
theorem keys_first (c : Dev nD) (i : grid0.Coords) (arg2 : Memref sig .tc .vmem S1x2048x1024 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1x256x64 .f32) (harg6 : arg6.IsWhole) (arg7 : Memref sig .tc .vmem S1x256x2048 .f32) (harg7 : arg7.IsWhole) (arg8 : Memref sig .tc .vmem S2048x64 .bf16) (harg8 : arg8.IsWhole) (arg9 : Memref sig .tc .vmem S2048x64 .bf16) (harg9 : arg9.IsWhole) (hc0 : cond0_0 i) (x0 : Vec F S1x2048x1024 .f32) (x1 : Vec F S1024x64 .f32) (x2 : Vec F S1024x64 .f32) (x3 : Vec F S1024x64 .f32) :
    sout0_A_0 c i arg2 harg2 arg3 harg3 arg4 harg4 arg5 harg5 arg6 harg6 arg7 harg7 arg8 harg8 arg9 harg9 hc0 x0 x1 x2 x3 = k0_pay5 x0 x2 := by
  unfold sout0_A_0
  rw [View.read_writes_eq_canon _ _ _ (scover0_A_0 c i arg2 harg2 arg3 harg3 arg4 harg4 arg5 harg5 arg6 harg6 arg7 harg7 arg8 harg8 arg9 harg9 hc0 x0 x1 x2 x3)]
  unfold kernelRun0_A
  dsimp only
  sl_unfold_words
  rw [View.canon_unit_zero zeros2]
  simp only [View.readAt_eq_ld, harg2.read_unread, harg4.read_unread, View.ld_unit_zero (S := S1x2048x1024) zeros3,
    View.ld_unit_zero (S := S1024x64) zeros2]

/-- The values a first point keeps. -/
theorem values_first (c : Dev nD) (i : grid0.Coords) (arg2 : Memref sig .tc .vmem S1x2048x1024 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1x256x64 .f32) (harg6 : arg6.IsWhole) (arg7 : Memref sig .tc .vmem S1x256x2048 .f32) (harg7 : arg7.IsWhole) (arg8 : Memref sig .tc .vmem S2048x64 .bf16) (harg8 : arg8.IsWhole) (arg9 : Memref sig .tc .vmem S2048x64 .bf16) (harg9 : arg9.IsWhole) (hc0 : cond0_0 i) (x0 : Vec F S1x2048x1024 .f32) (x1 : Vec F S1024x64 .f32) (x2 : Vec F S1024x64 .f32) (x3 : Vec F S1024x64 .f32) :
    sout0_A_1 c i arg2 harg2 arg3 harg3 arg4 harg4 arg5 harg5 arg6 harg6 arg7 harg7 arg8 harg8 arg9 harg9 hc0 x0 x1 x2 x3 = k0_pay6 x0 x3 := by
  unfold sout0_A_1
  rw [View.read_writes_eq_canon _ _ _ (scover0_A_1 c i arg2 harg2 arg3 harg3 arg4 harg4 arg5 harg5 arg6 harg6 arg7 harg7 arg8 harg8 arg9 harg9 hc0 x0 x1 x2 x3)]
  unfold kernelRun0_A
  dsimp only
  sl_unfold_words
  rw [View.canon_unit_zero zeros2]
  simp only [View.readAt_eq_ld, harg2.read_unread, harg5.read_unread, View.ld_unit_zero (S := S1x2048x1024) zeros3,
    View.ld_unit_zero (S := S1024x64) zeros2]

/-- The probability tile a first point stores. -/
theorem probs_first (c : Dev nD) (i : grid0.Coords) (arg2 : Memref sig .tc .vmem S1x2048x1024 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1x256x64 .f32) (harg6 : arg6.IsWhole) (arg7 : Memref sig .tc .vmem S1x256x2048 .f32) (harg7 : arg7.IsWhole) (arg8 : Memref sig .tc .vmem S2048x64 .bf16) (harg8 : arg8.IsWhole) (arg9 : Memref sig .tc .vmem S2048x64 .bf16) (harg9 : arg9.IsWhole) (hc0 : cond0_0 i) (x0 : Vec F S1x2048x1024 .f32) (x1 : Vec F S1024x64 .f32) (x2 : Vec F S1024x64 .f32) (x3 : Vec F S1024x64 .f32) :
    out0_A_5 c i arg2 harg2 arg3 harg3 arg4 harg4 arg5 harg5 arg6 harg6 arg7 harg7 arg8 harg8 arg9 harg9 hc0 x0 x1 x2 x3
      = k0_pay2 (k0_pay7 (tileRows i x0) x1 (k0_pay5 x0 x2)) (k0_pay8 (tileRows i x0) x1 (k0_pay5 x0 x2)) := by
  unfold out0_A_5
  rw [View.read_writes_eq_canon _ _ _ (cover0_A_5 c i arg2 harg2 arg3 harg3 arg4 harg4 arg5 harg5 arg6 harg6 arg7 harg7 arg8 harg8 arg9 harg9 hc0 x0 x1 x2 x3)]
  unfold kernelRun0_A
  dsimp only
  sl_unfold_words
  rw [View.canon_unit_zero zeros3]
  simp only [View.readAt_eq_ld, harg2.read_unread, harg3.read_unread, harg4.read_unread, harg5.read_unread,
    View.ld_unit_zero (S := S1x2048x1024) zeros3, View.ld_unit_zero (S := S1024x64) zeros2,
    View.readCov_unit_zero (S := S2048x64) _ zeros2]
  rfl

/-- The output tile a first point stores. -/
theorem outs_first (c : Dev nD) (i : grid0.Coords) (arg2 : Memref sig .tc .vmem S1x2048x1024 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1x256x64 .f32) (harg6 : arg6.IsWhole) (arg7 : Memref sig .tc .vmem S1x256x2048 .f32) (harg7 : arg7.IsWhole) (arg8 : Memref sig .tc .vmem S2048x64 .bf16) (harg8 : arg8.IsWhole) (arg9 : Memref sig .tc .vmem S2048x64 .bf16) (harg9 : arg9.IsWhole) (hc0 : cond0_0 i) (x0 : Vec F S1x2048x1024 .f32) (x1 : Vec F S1024x64 .f32) (x2 : Vec F S1024x64 .f32) (x3 : Vec F S1024x64 .f32) :
    out0_A_4 c i arg2 harg2 arg3 harg3 arg4 harg4 arg5 harg5 arg6 harg6 arg7 harg7 arg8 harg8 arg9 harg9 hc0 x0 x1 x2 x3
      = k0_pay3 (k0_pay6 x0 x3) (k0_pay7 (tileRows i x0) x1 (k0_pay5 x0 x2)) (k0_pay8 (tileRows i x0) x1 (k0_pay5 x0 x2)) := by
  unfold out0_A_4
  rw [View.read_writes_eq_canon _ _ _ (cover0_A_4 c i arg2 harg2 arg3 harg3 arg4 harg4 arg5 harg5 arg6 harg6 arg7 harg7 arg8 harg8 arg9 harg9 hc0 x0 x1 x2 x3)]
  unfold kernelRun0_A
  dsimp only
  sl_unfold_words
  rw [View.canon_unit_zero zeros3]
  simp only [View.readAt_eq_ld, harg2.read_unread, harg3.read_unread, harg4.read_unread, harg5.read_unread,
    View.ld_unit_zero (S := S1x2048x1024) zeros3, View.ld_unit_zero (S := S1024x64) zeros2,
    View.readCov_unit_zero (S := S2048x64) _ zeros2]
  rfl

end Cert.KernelIdeal.Pieces

end
-- ==== Proof.Spec.lean ====
/-
  Single-head attention with row-normalised scores, written index by index on the extended reals.

  For a batch b, a query row i and a key row j:
    the projections   q, k, v (b, t, h) = Σ_c x (b, t, c) · W (c, h),
    the score         s (b, i, j)       = (Σ_h q (b, i, h) · k (b, j, h)) · 1/8,
    its row mean      μ (b, i)          = (Σ_j s (b, i, j)) / 2048,
    the centred score c (b, i, j)       = s (b, i, j) − μ (b, i),
    its row variance  σ² (b, i)         = (Σ_j c (b, i, j)²) / 2048,
    the normed score  n (b, i, j)       = c (b, i, j) / √(σ² (b, i) + ε),
    the softmax       p (b, i, j)       = exp (n (b, i, j) − max_j n (b, i, ·)) / Σ_j exp (n (b, i, j) − max_j n (b, i, ·)),
    the output        o (b, i, h)       = Σ_j p (b, i, j) · v (b, j, h).

  Two laws join the two programs that compute it.  The first: multiplying by the reciprocal square root is dividing by
  the square root, x · y^(−1/2) = x / √y, for every extended real x and every y with 0 < y ≤ +∞ (at y = +∞ both sides
  are x · 0).  It applies because σ² + ε is positive whatever the entries are: a square is non-negative on the extended
  reals, so is a sum of squares, so is its 2048-th part, and ε > 0.  The second: the maximum of −∞ and m is m.
-/
import Idealize.ShloMosaic.PureOps.Ideal
import Idealize.ShloMosaic.PureOps.Ideal.Laws
import Idealize.ShloMosaic.Lib.ValueIdx

noncomputable section

open scoped BigOperators

namespace Cert.NormedAttention

open Idealize.ShloMosaic Idealize.ShloMosaic.ValueIdx

/-! ## The literals, as the extended reals their patterns denote -/

/-- The scale 1/8 = 64^(−1/2). -/
abbrev eighth : EReal := Ideal.ofBits .f32 0x3E000000#32
/-- The row length 2048. -/
abbrev width : EReal := Ideal.ofBits .f32 0x45000000#32
/-- The variance's ε (the single-precision value nearest 1e-5). -/
abbrev eps : EReal := Ideal.ofBits .f32 0x3727C5AC#32
/-- −∞, from which a row's maximum starts. -/
abbrev negInf : EReal := Ideal.ofBits .f32 0xFF800000#32

theorem width_eq : width = ((2048 : ℝ) : EReal) := by
  simp [Ideal.ofBits, Ideal.ieee, -EReal.coe_mul]; norm_num

theorem negInf_eq : negInf = ⊥ := by
  simp [Ideal.ofBits, Ideal.ieee]

theorem eps_pos : 0 < eps := by
  have h : eps = (((10995116 : ℝ) / 1099511627776 : ℝ) : EReal) := by
    simp [Ideal.ofBits, Ideal.ieee, -EReal.coe_mul]; norm_num
  rw [h]
  exact EReal.coe_pos.mpr (by norm_num)

/-! ## The two laws -/

/-- Multiplying by the reciprocal square root of a positive extended real (+∞ included) is dividing by its square root. -/
theorem mul_rsqrt_eq_div_sqrt (x y : EReal) (hy : 0 < y) :
    x * Ideal.rsqrt y = Ideal.div x (Ideal.sqrt y) := by
  induction y using EReal.rec with
  | bot => exact absurd hy (not_lt.mpr bot_le)
  | top =>
    rw [Ideal.rsqrt_top, Ideal.sqrt_top, Ideal.div, if_neg (by simp), EReal.inv_top]
  | coe r =>
    have hr : 0 < r := EReal.coe_pos.mp hy
    have hs : 0 < Real.sqrt r := Real.sqrt_pos.mpr hr
    rw [Ideal.rsqrt_coe, Ideal.sqrt_coe, if_neg (not_lt.mpr hr.le), if_neg hr.ne', if_neg (not_lt.mpr hr.le),
      Ideal.div, if_neg (by exact_mod_cast hs.ne'), EReal.coe_inv]

/-- A square is non-negative on the extended reals (the infinities' squares are +∞). -/
theorem mul_self_nonneg (a : EReal) : 0 ≤ a * a :=
  EReal.mul_nonneg_iff.mpr ((le_total 0 a).imp (fun h => ⟨h, h⟩) (fun h => ⟨h, h⟩))

/-- The 2048-th part of a non-negative extended real is non-negative. -/
theorem div_width_nonneg {s : EReal} (hs : 0 ≤ s) : 0 ≤ Ideal.div s width := by
  rw [width_eq, Ideal.div_coe (by norm_num : (2048 : ℝ) ≠ 0)]
  exact EReal.mul_nonneg hs (EReal.coe_nonneg.mpr (by norm_num))

/-- The maximum of −∞ and m is m. -/
theorem max_negInf (m : EReal) : max negInf m = m := by
  rw [negInf_eq]; exact max_eq_right bot_le

/-! ## The function -/

section
variable (X : (⟨3, ![8, 2048, 1024]⟩ : Shape).Idx → EReal) (Wq Wk Wv : (⟨2, ![1024, 64]⟩ : Shape).Idx → EReal)

/-- A projection of row t of batch b onto column h of a weight matrix. -/
def proj (W : (⟨2, ![1024, 64]⟩ : Shape).Idx → EReal) (b : Fin 8) (t : Fin 2048) (h : Fin 64) : EReal :=
  ∑ c : Fin 1024, X (ix3 b t c) * W (ix2 c h)

/-- The scaled score of query row i against key row j. -/
def score (b : Fin 8) (i j : Fin 2048) : EReal :=
  (∑ h : Fin 64, proj X Wq b i h * proj X Wk b j h) * eighth

/-- The mean of a row of scores. -/
def mean (b : Fin 8) (i : Fin 2048) : EReal :=
  Ideal.div (∑ j : Fin 2048, score X Wq Wk b i j) width

/-- The score with its row's mean taken off. -/
def centred (b : Fin 8) (i j : Fin 2048) : EReal :=
  score X Wq Wk b i j - mean X Wq Wk b i

/-- The mean square of a row of centred scores. -/
def variance (b : Fin 8) (i : Fin 2048) : EReal :=
  Ideal.div (∑ j : Fin 2048, centred X Wq Wk b i j * centred X Wq Wk b i j) width

/-- The centred score divided by its row's standard deviation (with ε under the root). -/
def normed (b : Fin 8) (i j : Fin 2048) : EReal :=
  Ideal.div (centred X Wq Wk b i j) (Ideal.sqrt (variance X Wq Wk b i + eps))

/-- The largest normed score of a row. -/
def rowMax (b : Fin 8) (i : Fin 2048) : EReal :=
  (Finset.univ : Finset (Fin 2048)).fold max negInf (fun j => normed X Wq Wk b i j)

/-- The exponential of a normed score, its row's maximum taken off. -/
def weight (b : Fin 8) (i j : Fin 2048) : EReal :=
  Ideal.exp (normed X Wq Wk b i j - rowMax X Wq Wk b i)

/-- The softmax of a row of normed scores. -/
def prob (b : Fin 8) (i j : Fin 2048) : EReal :=
  Ideal.div (weight X Wq Wk b i j) (∑ j' : Fin 2048, weight X Wq Wk b i j')

/-- The attention output: the softmax-weighted sum of the value rows. -/
def mix (b : Fin 8) (i : Fin 2048) (h : Fin 64) : EReal :=
  ∑ j : Fin 2048, prob X Wq Wk b i j * proj X Wv b j h

/-- The attention probabilities as one [8, 2048, 2048] array. -/
def probArray : (⟨3, ![8, 2048, 2048]⟩ : Shape).Idx → EReal :=
  fun idx => prob X Wq Wk (idx 0) (idx 1) (idx 2)

/-- The attention outputs as one [8, 2048, 64] array. -/
def mixArray : (⟨3, ![8, 2048, 64]⟩ : Shape).Idx → EReal :=
  fun idx => mix X Wq Wk Wv (idx 0) (idx 1) (idx 2)

/-- The quantity under the square root is positive, whatever the entries. -/
theorem variance_eps_pos (b : Fin 8) (i : Fin 2048) : 0 < variance X Wq Wk b i + eps :=
  lt_of_lt_of_le eps_pos (le_add_of_nonneg_left
    (div_width_nonneg (Finset.sum_nonneg fun j _ => mul_self_nonneg (centred X Wq Wk b i j))))

/-- The normed score as a product with the reciprocal square root. -/
theorem centred_mul_rsqrt (b : Fin 8) (i j : Fin 2048) :
    centred X Wq Wk b i j * Ideal.rsqrt (variance X Wq Wk b i + eps) = normed X Wq Wk b i j :=
  mul_rsqrt_eq_div_sqrt _ _ (variance_eps_pos X Wq Wk b i)

end

end Cert.NormedAttention

end
-- ==== Proof.LibPlainMatmul.lean ====
/-
  A plain matrix product read at an entry.

  For the dimension numbers of an ordinary product — an [a, n] array times an [n, b] array, contracting the second
  axis of the left with the first axis of the right, no batch axis — the product accumulated onto the zero array is, on
  the extended reals, at (p, q) the sum over k of left (p, k) · right (k, q).  The extents are variables, so the
  reading does not change with a kernel's tiling.
-/
import Idealize.ShloMosaic.Lib.ValueIdx
import Idealize.ShloMosaic.PureOps.Ideal.Laws

noncomputable section

open scoped BigOperators

namespace Cert.PlainMatmul

open Idealize.ShloMosaic Idealize.ShloMosaic.ValueIdx

/-- The dimension numbers of an ordinary [a, n] × [n, b] product, over any witness of their well-formedness. -/
abbrev dims {a n b : ℕ}
    (wf : DotDims.WF ⟨2, ![a, n]⟩ ⟨2, ![n, b]⟩ ⟨2, ![a, b]⟩ [1] [0] [0] [1] [] []) :
    DotDims ⟨2, ![a, n]⟩ ⟨2, ![n, b]⟩ ⟨2, ![a, b]⟩ :=
  ⟨[1], [0], [0], [1], [], [], wf⟩

/-- An ordinary product onto the zero array: at (p, q) the sum over k of left (p, k) · right (k, q). -/
theorem zero_acc_apply {a n b : ℕ} {φ₁ φ₂ : FTy}
    (wf : DotDims.WF ⟨2, ![a, n]⟩ ⟨2, ![n, b]⟩ ⟨2, ![a, b]⟩ [1] [0] [0] [1] [] [])
    (prec : Option ContractPrecision) (L : FVec Ideal ⟨2, ![a, n]⟩ φ₁) (R : FVec Ideal ⟨2, ![n, b]⟩ φ₂)
    (p : Fin a) (q : Fin b) :
    FloatOps.matmul (dims wf) prec L R (constant ⟨2, ![a, b]⟩ .f32 0x00000000#32) (ix2 p q)
      = ∑ k : Fin n, L (ix2 p k) * R (ix2 k q) := by
  rw [Ideal.matmul_constant_zero_apply, ← Equiv.sum_comp (contrEquiv1 (dims wf) n rfl rfl).symm]
  refine Finset.sum_congr rfl fun k _ => ?_
  have hk := contrEquiv1_symm_val (dims wf) n rfl rfl k
  have el : (dims wf).lhsIdx (ix2 p q) ((contrEquiv1 (dims wf) n rfl rfl).symm k) = ix2 p k :=
    funext fun ax => Fin.ext (by
      match ax with
      | ⟨0, _⟩ => rfl
      | ⟨1, _⟩ => exact ((dims wf).lhsIdx_val_of_single rfl _ _).trans hk)
  have er : (dims wf).rhsIdx (ix2 p q) ((contrEquiv1 (dims wf) n rfl rfl).symm k) = ix2 k q :=
    funext fun ax => Fin.ext (by
      match ax with
      | ⟨0, _⟩ => exact ((dims wf).rhsIdx_val_of_single rfl _ _).trans hk
      | ⟨1, _⟩ => rfl)
  rw [el, er]

end Cert.PlainMatmul

end
-- ==== Proof.LibRowOps.lean ====
/-
  Three readings at an entry (p, q) of a two-axis array, for the shapes a row-wise reduction meets.

  A vector of one value per row, kept as a column [a, 1] and repeated along the columns, reads at (p, q) its value
  for row p.  A vector of one value per column, kept as a row [1, b] and repeated along the rows, reads at (p, q) its
  value for column q.  And the sum over the second axis of an [a, n] array, read on the extended reals, is at row p
  the sum over d of the entries (p, d).
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.RowOps

open Idealize.ShloMosaic Idealize.ShloMosaic.ValueIdx

variable {α : Type}

/-- One value per row, kept as a column and repeated along `b` columns: at (p, q) it is the value of row `p`. -/
theorem column_repeated_apply {a b : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ v hc) hb (ix2 p q) = v (ix1 p) := by
  refine (broadcastTo_apply _ hb (ix2 p q) (ix2 p (0 : Fin 1)) fun ax => ?_).trans ?_
  · match ax with
    | ⟨0, _⟩ =>
      show p.val = if a = 1 then 0 else p.val
      split
      · have := p.isLt; omega
      · rfl
    | ⟨1, _⟩ =>
      show 0 = if (1 : ℕ) = 1 then 0 else q.val
      rw [if_pos rfl]
  · exact shapeCast_apply v hc _ _ (by
      rw [Shape.rowMajor_val_one, Shape.rowMajor_val_two]
      show p.val = p.val * 1 + 0
      omega)

/-- One value per column, kept as a row and repeated along `a` rows: at (p, q) it is the value of column `q`. -/
theorem row_repeated_apply {a b : ℕ} (v : (⟨1, ![b]⟩ : Shape).Idx → α)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ v hc) hb (ix2 p q) = v (ix1 q) :=
  (broadcastTo_1b_ab_apply _ hb p q).trans (shapeCast_a_1a_apply v hc 0 q)

/-- The sum over the second axis of an [a, n] array of extended reals: at row `p` the sum over `d` of the entries (p, d). -/
theorem sum_over_columns_apply {a n : ℕ} (src : FVec Ideal ⟨2, ![a, n]⟩ .f32)
    (h : (⟨2, ![a, n]⟩ : Shape).Reduces [1] ⟨1, ![a]⟩) (hφ : FKind.Formats .f32)
    (hacc : (0x00000000#32 : BitVec 32) = 0x00000000#32) (p : Fin a) :
    multiReduction .add [1] ⟨1, ![a]⟩ src 0x00000000#32 h hφ hacc (ix1 p) = ∑ d : Fin n, src (ix2 p d) :=
  (Ideal.multiReduction_add_single src 0x00000000#32 h hφ hacc (ix1 p)).trans
    (Finset.sum_congr rfl fun d _ => congrArg src (funext fun ax => Fin.ext (by
      match ax with
      | ⟨0, _⟩ => rfl
      | ⟨1, _⟩ => rfl)))

end Cert.RowOps

end
-- ==== Proof.LibRowMax.lean ====
/-
  The maximum over the second axis of an [a, n] array, read on the extended reals.

  A row-wise maximum that starts from -∞ (the pattern 0xFF800000) is, at row p, the fold of `max` from -∞ over the
  n entries (p, d) of the row, in any order: `max` is commutative and associative on the extended reals.
-/
import Idealize.ShloMosaic.Lib.ValueIdx
import Idealize.ShloMosaic.PureOps.Ideal.Laws

noncomputable section

namespace Cert.RowMax

open Idealize.ShloMosaic Idealize.ShloMosaic.ValueIdx

/-- The maximum over the second axis of an [a, n] array of extended reals, taken from -∞: at row `p` the fold of
    `max` from -∞ over the entries (p, d). -/
theorem max_over_columns_apply {a n : ℕ} (src : FVec Ideal ⟨2, ![a, n]⟩ .f32)
    (h : (⟨2, ![a, n]⟩ : Shape).Reduces [1] ⟨1, ![a]⟩) (hφ : FKind.Formats .f32)
    (hacc : (0xFF800000#32 : BitVec 32) = 0xFF800000#32) (p : Fin a) :
    multiReduction .maximumf [1] ⟨1, ![a]⟩ src 0xFF800000#32 h hφ hacc (ix1 p)
      = (Finset.univ : Finset (Fin n)).fold max (Ideal.ofBits .f32 0xFF800000#32) (fun d => src (ix2 p d)) :=
  (Ideal.multiReduction_maximumf_single src 0xFF800000#32 h hφ hacc (ix1 p)).trans
    (Finset.fold_congr fun d _ => congrArg src (funext fun ax => Fin.ext (by
      match ax with
      | ⟨0, _⟩ => rfl
      | ⟨1, _⟩ => rfl)))

end Cert.RowMax

end
-- ==== Proof.LibKeepdims.lean ====
/-
  Readings at an entry (p, q) for the shapes a mean or a length "per row, kept as a column" goes through, in the
  vector form (a cast [a] → [a, 1], a repeat [a, 1] → [a, b]) and in the host form (a broadcast-in-dimension [a] → [a, 1]
  along axis 0, [a, 1] → [a, b] along both axes), and the host's sum over the second axis of an [a, n] array read on the
  extended reals: the initial value plus the sum over d of the entries (p, d).
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.Keepdims

open Idealize.ShloMosaic Idealize.ShloMosaic.ValueIdx

variable {α : Type}

/-- A column [a, 1] repeated along `b` columns reads, at (p, q), the column's entry of row `p`. -/
theorem column_repeat_apply {a b : ℕ} (u : (⟨2, ![a, 1]⟩ : Shape).Idx → α)
    (hb : (⟨2, ![a, 1]⟩ : Shape).Broadcasts ⟨2, ![a, b]⟩) (p : Fin a) (q : Fin b) :
    broadcastTo ⟨2, ![a, b]⟩ u hb (ix2 p q) = u (ix2 p (0 : Fin 1)) := by
  refine broadcastTo_apply _ hb (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-- A vector [a] kept as a column [a, 1] reads, at (p, 0), its entry `p`. -/
theorem column_cast_apply {a : ℕ} (v : (⟨1, ![a]⟩ : Shape).Idx → α)
    (hc : (⟨1, ![a]⟩ : Shape).ShapeCasts ⟨2, ![a, 1]⟩) (p : Fin a) :
    shapeCast ⟨2, ![a, 1]⟩ v hc (ix2 p (0 : Fin 1)) = v (ix1 p) :=
  shapeCast_apply v hc _ _ (by
    rw [Shape.rowMajor_val_one, Shape.rowMajor_val_two]
    show p.val = p.val * 1 + 0
    omega)

/-- The host's broadcast of a vector [a] to a column [a, 1] along axis 0 reads, at (p, 0), its entry `p`. -/
theorem host_column_apply {a : ℕ} (v : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h v (ix2 p z) = v (ix1 p) := by
  refine broadcastInDim_apply _ h v (ix2 p z) (ix1 p) fun ax => ?_
  match ax with
  | ⟨0, _⟩ =>
    show p.val = if a = 1 then 0 else p.val
    split
    · have := p.isLt; omega
    · rfl

/-- The host's broadcast of a column [a, 1] to [a, b] reads, at (p, q), the column's entry of row `p`. -/
theorem host_column_repeat_apply {a b : ℕ} (u : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h u (ix2 p q) = u (ix2 p (0 : Fin 1)) := by
  refine broadcastInDim_apply _ h u (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-- The host's sum over the second axis of an [a, n] array of extended reals: at row `p` the initial value plus the sum
    over `d` of the entries (p, d). -/
theorem host_sum_over_columns_apply {a n : ℕ} (x : FVec Ideal ⟨2, ![a, n]⟩ .f32) (init : FVec Ideal ⟨0, ![]⟩ .f32)
    (h : (⟨2, ![a, n]⟩ : Shape).ReducesTo [1] ⟨1, ![a]⟩) (h' : (⟨2, ![a, n]⟩ : Shape).Reduces [1] ⟨1, ![a]⟩)
    (hu : 0 < (⟨0, ![]⟩ : Shape).numel) (p : Fin a) :
    Host.reduceAdd x init h hu (ix1 p) = init ix0 + ∑ d : Fin n, x (ix2 p d) := by
  rw [hostReduceAdd_apply, Ideal.hostReduceAdd_single h h', eq_ix0 (Shape.Idx.first hu)]
  refine congrArg (_ + ·) (Finset.sum_congr rfl fun d _ => ?_)
  exact congrArg x (funext fun ax => Fin.ext (by
    match ax with
    | ⟨0, _⟩ => rfl
    | ⟨1, _⟩ => rfl))

end Cert.Keepdims

end
-- ==== Proof.Payload.lean ====
/-
  What the kernel body computes from the blocks it loads, read index by index on the extended reals.

  At a grid point the body sees a batch's whole x block [1, 2048, 1024], the three weight matrices, and (from the
  point that opened the batch) the batch's key and value projections, kept whole between points.  A rounding to a
  narrower float format is the identity on the extended reals, so:
    the kept projections are rows r of  Σ_c x (0, r, c) · W (c, h);
    the query tile's scaled scores are  (Σ_h q (p, h) · k (j, h)) · 1/8  with q the tile's own projection;
    centring, the variance, the product with the reciprocal square root, the row maximum, the exponentials, their row
    sums and the quotient follow the text of the computation line by line, every reduction a sum or a fold of max over
    the 2048 entries of a row;
    the output tile is  Σ_j p (p, j) · v (j, h).
  Each reading is stated for a row p of the tile standing for row i of batch b of the whole problem: given that the
  tile's query row and the kept key and value rows are those of the problem, the body's values are the problem's.
-/
import proofs.«149251_j35802847380251_2_alg».proof.Proof.Gen.KernelIdeal.Skeleton
import proofs.«149251_j35802847380251_2_alg».proof.Proof.Spec
import proofs.«149251_j35802847380251_2_alg».proof.Proof.LibPlainMatmul
import proofs.«149251_j35802847380251_2_alg».proof.Proof.LibRowOps
import proofs.«149251_j35802847380251_2_alg».proof.Proof.LibRowMax
import proofs.«149251_j35802847380251_2_alg».proof.Proof.LibKeepdims
import Idealize.ShloMosaic.Lib.ValueLayout
import Idealize.ShloMosaic.Lib.Pipeline.Value

noncomputable section

open scoped BigOperators

namespace Cert.KernelIdeal.Payload

open Cert.KernelIdeal Cert.KernelIdeal.Gen Idealize.ShloMosaic Idealize.ShloMosaic.ValueIdx
open Cert.NormedAttention

/-! ## The projections kept between points -/

/-- The key projection the batch's first point keeps: row r, column h is Σ_c x (0, r, c) · Wk (c, h). -/
theorem kept_keys_apply (xb : FVec Ideal S1x2048x1024 .f32) (w : FVec Ideal S1024x64 .f32) (r : Fin 2048) (h : Fin 64) :
    k0_pay5 (F := Ideal) xb w (ix2 r h) = ∑ c : Fin 1024, xb (ix3 (0 : Fin 1) r c) * w (ix2 c h) := by
  unfold k0_pay5 k0_pay4
  refine (congrFun (shapeCast_self _ _) (ix2 r h)).trans ?_
  refine (Cert.PlainMatmul.zero_acc_apply dot_S2048x1024_S1024x64_S2048x64_1_0_0_1_n_n_wf none _ _ r h).trans ?_
  exact Finset.sum_congr rfl fun c _ => congrArg (· * w (ix2 c h)) (shapeCast_1ab_ab_apply xb _ r c)

/-- The value projection the batch's first point keeps: row r, column h is Σ_c x (0, r, c) · Wv (c, h). -/
theorem kept_values_apply (xb : FVec Ideal S1x2048x1024 .f32) (w : FVec Ideal S1024x64 .f32) (r : Fin 2048) (h : Fin 64) :
    k0_pay6 (F := Ideal) xb w (ix2 r h) = ∑ c : Fin 1024, xb (ix3 (0 : Fin 1) r c) * w (ix2 c h) := by
  unfold k0_pay6 k0_pay4
  refine (congrFun (shapeCast_self _ _) (ix2 r h)).trans ?_
  refine (Cert.PlainMatmul.zero_acc_apply dot_S2048x1024_S1024x64_S2048x64_1_0_0_1_n_n_wf none _ _ r h).trans ?_
  exact Finset.sum_congr rfl fun c _ => congrArg (· * w (ix2 c h)) (shapeCast_1ab_ab_apply xb _ r c)

/-! ## The query tile's scores -/

section Scores
variable (xs : FVec Ideal S1x256x1024 .f32) (wq : FVec Ideal S1024x64 .f32) (ks : FVec Ideal S2048x64 .bf16)

/-- The tile's scaled scores against every key row. -/
def scaled : FVec Ideal S256x2048 .f32 :=
  mulf (matmul dot_S256x64_S64x2048_S256x2048_1_0_0_1_n_n none
      (truncf .bf16 (matmul dot_S256x1024_S1024x64_S256x64_1_0_0_1_n_n none
        (truncf .bf16 (shapeCast S256x1024 xs shapeCasts_S1x256x1024_S256x1024) bitsLt_bf16_f32)
        (truncf .bf16 wq bitsLt_bf16_f32) (constant S256x64 .f32 0x00000000#32)) bitsLt_bf16_f32)
      (transpose S64x2048 [1, 0] ks transposes_S2048x64_p1_0_S64x2048) (constant S256x2048 .f32 0x00000000#32))
    (broadcast S256x2048 (Scalar.ofBits .f32 0x3E000000#32))

/-- A row statistic (one value per row, as a column) divided by the row length and repeated along the row. -/
def rowPart (v : FVec Ideal S256 .f32) : FVec Ideal S256x1 .f32 :=
  divf (shapeCast S256x1 v shapeCasts_S256_S256x1) (broadcast S256x1 (Scalar.ofBits .f32 0x45000000#32))

/-- A row statistic of row p, divided by the row length. -/
theorem rowPart_apply (p : Fin 256) (v : FVec Ideal S256 .f32) :
    rowPart v (ix2 p (0 : Fin 1)) = Ideal.div (v (ix1 p)) width :=
  congrArg (Ideal.div · width) (Cert.Keepdims.column_cast_apply v _ p)

/-- The scores with their row means taken off. -/
def centredTile : FVec Ideal S256x2048 .f32 :=
  subf (scaled xs wq ks) (broadcastTo S256x2048
    (rowPart (multiReduction .add [1] S256 (scaled xs wq ks) 0x00000000#32 reduces_S256x2048_S256 (.inl rfl) rfl))
    broadcasts_S256x1_S256x2048)

/-- The reciprocal standard deviation of each row (with ε under the root), as a column. -/
def invDev : FVec Ideal S256x1 .f32 :=
  rsqrt (addf (rowPart (multiReduction .add [1] S256 (mulf (centredTile xs wq ks) (centredTile xs wq ks)) 0x00000000#32
      reduces_S256x2048_S256 (.inl rfl) rfl))
    (broadcast S256x1 (Scalar.ofBits .f32 0x3727C5AC#32)))

/-- The body's normed scores are the centred ones times the reciprocal standard deviation of their row. -/
theorem normed_tile_eq : k0_pay7 (F := Ideal) xs wq ks
    = mulf (centredTile xs wq ks) (broadcastTo S256x2048 (invDev xs wq ks) broadcasts_S256x1_S256x2048) := rfl

variable (X : (⟨3, ![8, 2048, 1024]⟩ : Shape).Idx → EReal) (Wq Wk : (⟨2, ![1024, 64]⟩ : Shape).Idx → EReal)
variable (b : Fin 8) (i : Fin 2048) (p : Fin 256)
variable (hq : ∀ h : Fin 64, ∑ c : Fin 1024, xs (ix3 (0 : Fin 1) p c) * wq (ix2 c h) = proj X Wq b i h)
variable (hk : ∀ (j : Fin 2048) (h : Fin 64), ks (ix2 j h) = proj X Wk b j h)

include hq hk

/-- Row p of the tile against key row j: the problem's scaled score of query row i against key row j. -/
theorem scaled_apply (j : Fin 2048) : scaled xs wq ks (ix2 p j) = score X Wq Wk b i j := by
  unfold scaled score
  refine congrArg (· * eighth) ?_
  refine (Cert.PlainMatmul.zero_acc_apply dot_S256x64_S64x2048_S256x2048_1_0_0_1_n_n_wf none _ _ p j).trans
    (Finset.sum_congr rfl fun h _ => ?_)
  refine congrArg₂ (· * ·) ?_ ((transpose_ix2_apply ks _ h j).trans (hk j h))
  refine (Cert.PlainMatmul.zero_acc_apply dot_S256x1024_S1024x64_S256x64_1_0_0_1_n_n_wf none _ _ p h).trans ?_
  refine (Finset.sum_congr rfl fun c _ => ?_).trans (hq h)
  exact congrArg (· * wq (ix2 c h)) (shapeCast_1ab_ab_apply xs _ p c)

/-- Row p, column j of the centred tile: the problem's centred score. -/
theorem centredTile_apply (j : Fin 2048) : centredTile xs wq ks (ix2 p j) = centred X Wq Wk b i j := by
  unfold centredTile centred mean
  refine congrArg₂ (· - ·) (scaled_apply xs wq ks X Wq Wk b i p hq hk j) ?_
  refine (Cert.Keepdims.column_repeat_apply _ _ p j).trans ?_
  refine (rowPart_apply p _).trans (congrArg (Ideal.div · width) ?_)
  exact (Cert.RowOps.sum_over_columns_apply _ _ (.inl rfl) rfl p).trans
    (Finset.sum_congr rfl fun d _ => scaled_apply xs wq ks X Wq Wk b i p hq hk d)

/-- The reciprocal standard deviation of row p. -/
theorem invDev_apply : invDev xs wq ks (ix2 p (0 : Fin 1)) = Ideal.rsqrt (variance X Wq Wk b i + eps) := by
  unfold invDev variance
  show Ideal.rsqrt (rowPart _ (ix2 p (0 : Fin 1)) + eps) = _
  refine congrArg Ideal.rsqrt (congrArg (· + eps) ?_)
  refine (rowPart_apply p _).trans (congrArg (Ideal.div · width) ?_)
  exact (Cert.RowOps.sum_over_columns_apply _ _ (.inl rfl) rfl p).trans
    (Finset.sum_congr rfl fun d _ => congrArg₂ (· * ·) (centredTile_apply xs wq ks X Wq Wk b i p hq hk d)
      (centredTile_apply xs wq ks X Wq Wk b i p hq hk d))

/-- Row p, column j of the body's normed scores: the problem's normed score (the product with the reciprocal square
    root is the quotient by the square root, the quantity under the root being positive). -/
theorem normed_tile_apply (j : Fin 2048) : k0_pay7 (F := Ideal) xs wq ks (ix2 p j) = normed X Wq Wk b i j := by
  rw [normed_tile_eq]
  refine Eq.trans ?_ (centred_mul_rsqrt X Wq Wk b i j)
  exact congrArg₂ (· * ·) (centredTile_apply xs wq ks X Wq Wk b i p hq hk j)
    ((Cert.Keepdims.column_repeat_apply _ _ p j).trans (invDev_apply xs wq ks X Wq Wk b i p hq hk))

/-- The body's row maximum of row p: the largest normed score of the problem's row. -/
theorem row_max_apply : k0_pay8 (F := Ideal) xs wq ks (ix2 p (0 : Fin 1)) = rowMax X Wq Wk b i := by
  unfold k0_pay8 rowMax
  refine (Cert.Keepdims.column_cast_apply _ _ p).trans ?_
  refine (Cert.RowMax.max_over_columns_apply _ _ (.inl rfl) rfl p).trans ?_
  exact Finset.fold_congr fun d _ => normed_tile_apply xs wq ks X Wq Wk b i p hq hk d

end Scores

/-! ## The softmax and the two stored tiles -/

section Softmax
variable (n : FVec Ideal S256x2048 .f32) (mx : FVec Ideal S256x1 .f32)

/-- The exponentials of the normed scores, each row's maximum taken off. -/
def expTile : FVec Ideal S256x2048 .f32 :=
  exp (subf n (broadcastTo S256x2048 mx broadcasts_S256x1_S256x2048))

/-- The body's probabilities are the exponentials over their row sums. -/
theorem softmax_tile_eq : k0_pay1 (F := Ideal) n mx
    = divf (expTile n mx) (broadcastTo S256x2048 (shapeCast S256x1 (multiReduction .add [1] S256 (expTile n mx)
        0x00000000#32 reduces_S256x2048_S256 (.inl rfl) rfl) shapeCasts_S256_S256x1) broadcasts_S256x1_S256x2048) := rfl

variable (X : (⟨3, ![8, 2048, 1024]⟩ : Shape).Idx → EReal) (Wq Wk Wv : (⟨2, ![1024, 64]⟩ : Shape).Idx → EReal)
variable (b : Fin 8) (i : Fin 2048) (p : Fin 256)
variable (hn : ∀ j : Fin 2048, n (ix2 p j) = normed X Wq Wk b i j)
variable (hm : mx (ix2 p (0 : Fin 1)) = rowMax X Wq Wk b i)

include hn hm

/-- Row p, column j of the exponentials. -/
theorem expTile_apply (j : Fin 2048) : expTile n mx (ix2 p j) = weight X Wq Wk b i j := by
  unfold expTile weight
  show Ideal.exp (n (ix2 p j) - broadcastTo S256x2048 mx broadcasts_S256x1_S256x2048 (ix2 p j)) = _
  exact congrArg Ideal.exp (congrArg₂ (· - ·) (hn j) ((Cert.Keepdims.column_repeat_apply mx _ p j).trans hm))

/-- Row p, column j of the body's probabilities: the problem's softmax. -/
theorem softmax_tile_apply (j : Fin 2048) : k0_pay1 (F := Ideal) n mx (ix2 p j) = prob X Wq Wk b i j := by
  rw [softmax_tile_eq]
  unfold prob
  refine congrArg₂ Ideal.div (expTile_apply n mx X Wq Wk b i p hn hm j) ?_
  refine (Cert.Keepdims.column_repeat_apply _ _ p j).trans ((Cert.Keepdims.column_cast_apply _ _ p).trans ?_)
  exact (Cert.RowOps.sum_over_columns_apply _ _ (.inl rfl) rfl p).trans
    (Finset.sum_congr rfl fun d _ => expTile_apply n mx X Wq Wk b i p hn hm d)

/-- The stored probability tile at (0, p, j). -/
theorem stored_probs_apply (u : Fin 1) (j : Fin 2048) :
    k0_pay2 (F := Ideal) n mx (ix3 u p j) = prob X Wq Wk b i j := by
  unfold k0_pay2
  exact (shapeCast_ab_1ab_apply _ _ u p j).trans (softmax_tile_apply n mx X Wq Wk b i p hn hm j)

/-- The stored output tile at (0, p, h): the probabilities of row p against the kept value rows. -/
theorem stored_outs_apply (vs : FVec Ideal S2048x64 .bf16)
    (hv : ∀ (j : Fin 2048) (h : Fin 64), vs (ix2 j h) = proj X Wv b j h) (u : Fin 1) (h : Fin 64) :
    k0_pay3 (F := Ideal) vs n mx (ix3 u p h) = mix X Wq Wk Wv b i h := by
  unfold k0_pay3 mix
  refine (shapeCast_ab_1ab_apply _ _ u p h).trans ?_
  refine (Cert.PlainMatmul.zero_acc_apply dot_S256x2048_S2048x64_S256x64_1_0_0_1_n_n_wf none _ _ p h).trans ?_
  exact Finset.sum_congr rfl fun j _ => congrArg₂ (· * ·) (softmax_tile_apply n mx X Wq Wk b i p hn hm j) (hv j h)

end Softmax

end Cert.KernelIdeal.Payload

end
-- ==== Proof.KernelValue.lean ====
/-
  The kernel's two result arrays are the specification's arrays of its argument arrays.

  The grid has 64 points: point t works on batch t / 8 and on the query tile t mod 8, rows 256·(t mod 8) … + 255 of the
  batch.  Its x block is the batch's whole [2048, 1024] slice, its weight blocks are the weight matrices, and its two
  output blocks are rows 256·(t mod 8) … of batch t / 8 of the two result arrays.
  The key and value projections a batch's first point keeps are read by the seven points that follow it: by induction
  on the point, after any point the kept rows are the batch's projections.  So at every point the two stored tiles are
  the specification's values for the tile's rows, whether the point projected the keys and values itself or found them.
  The blocks of the 64 points tile each result array (row r of batch b lies in the block of point 8·b + r / 256), so
  each array ends holding the specification's array.
-/
import proofs.«149251_j35802847380251_2_alg».proof.Proof.Gen.KernelIdeal.Value
import proofs.«149251_j35802847380251_2_alg».proof.Proof.Pieces
import proofs.«149251_j35802847380251_2_alg».proof.Proof.Payload

set_option maxRecDepth 16384

noncomputable section

open scoped BigOperators

namespace Cert.KernelIdeal.Whole

open Cert.KernelIdeal Cert.KernelIdeal.Gen Cert.KernelIdeal.Value Cert.KernelIdeal.Pieces Cert.KernelIdeal.Payload
open Idealize.ShloMosaic Idealize.ShloMosaic.TcCoe Idealize.SL.Sem Idealize.ShloMosaic.ValueIdx
open Cert.NormedAttention
open Idealize.ShloMosaic.Pipeline (Dat)

variable (m : (ℓ : Loc nD τ sig) → Buf (Elt Ideal) ℓ) (ρ : Dev nD → PrngReg)

/-! ## Which batch and which rows a grid point works on -/

theorem point_lt (t : Fin cfg0.N) : t.val < 64 := lt_of_lt_of_eq t.isLt (show cfg0.N = 64 from N_0)

/-- The batch of a point. -/
def batchOf (t : Fin cfg0.N) : Fin 8 := ⟨t.val / 8, by have := point_lt t; omega⟩

/-- Row p of a point's query tile, as a row of the batch. -/
def rowOf (t : Fin cfg0.N) (p : Fin 256) : Fin 2048 := ⟨256 * (t.val % 8) + p.val, by have := p.isLt; omega⟩

/-- The printed index maps and the point's second grid coordinate, decided over the 64 points. -/
theorem idx_facts : ∀ t : Fin cfg0.N,
    win0_0.index t (0 : Fin 3) = t.val / 8 ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val / 8 ∧ win0_4.index t (1 : Fin 3) = t.val % 8 ∧ win0_4.index t (2 : Fin 3) = 0
    ∧ win0_5.index t (0 : Fin 3) = t.val / 8 ∧ win0_5.index t (1 : Fin 3) = t.val % 8 ∧ win0_5.index t (2 : Fin 3) = 0
    ∧ (grid0.coords t 1).val = t.val % 8 :=
  (by decide +kernel : ∀ t : Fin grid0.N, _)

/-! ## The input blocks of a point -/

/-- The x block of point t is batch t / 8 of x. -/
theorem x_block_apply (c : Dev nD) (t : Fin cfg0.N) (u : Fin 1) (r : Fin 2048) (cc : Fin 1024) :
    (iblk m c 0 t : Vec Ideal S1x2048x1024 .f32) (ix3 u r cc) = V m c main_arg0 (ix3 (batchOf t) r cc) := by
  obtain ⟨e0, e1, e2, -⟩ := idx_facts t
  have hu : u.val = 0 := by have := u.isLt; omega
  show V m c main_arg0 (((cfg0.win 0).blk t).view.emb (ix3 u r cc)) = _
  refine congrArg (V m c main_arg0) (funext fun a => Fin.ext ?_)
  match a with
  | ⟨0, _⟩ => show win0_0.index t (0 : Fin 3) * 1 + 1 * u.val = t.val / 8; omega
  | ⟨1, _⟩ => show win0_0.index t (1 : Fin 3) * 2048 + 1 * r.val = r.val; omega
  | ⟨2, _⟩ => show win0_0.index t (2 : Fin 3) * 1024 + 1 * cc.val = cc.val; omega

/-- The query-weight block of every point is the whole matrix. -/
theorem wq_block_apply (c : Dev nD) (t : Fin cfg0.N) (cc : Fin 1024) (h : Fin 64) :
    (iblk m c 1 t : Vec Ideal S1024x64 .f32) (ix2 cc h) = V m c main_arg1 (ix2 cc h) := by
  obtain ⟨-, -, -, e0, e1, -⟩ := idx_facts t
  show V m c main_arg1 (((cfg0.win 1).blk t).view.emb (ix2 cc h)) = _
  refine congrArg (V m c main_arg1) (funext fun a => Fin.ext ?_)
  match a with
  | ⟨0, _⟩ => show win0_1.index t (0 : Fin 2) * 1024 + 1 * cc.val = cc.val; omega
  | ⟨1, _⟩ => show win0_1.index t (1 : Fin 2) * 64 + 1 * h.val = h.val; omega

/-- The key-weight block of every point is the whole matrix. -/
theorem wk_block_apply (c : Dev nD) (t : Fin cfg0.N) (cc : Fin 1024) (h : Fin 64) :
    (iblk m c 2 t : Vec Ideal S1024x64 .f32) (ix2 cc h) = V m c main_arg2 (ix2 cc h) := by
  obtain ⟨-, -, -, -, -, e0, e1, -⟩ := idx_facts t
  show V m c main_arg2 (((cfg0.win 2).blk t).view.emb (ix2 cc h)) = _
  refine congrArg (V m c main_arg2) (funext fun a => Fin.ext ?_)
  match a with
  | ⟨0, _⟩ => show win0_2.index t (0 : Fin 2) * 1024 + 1 * cc.val = cc.val; omega
  | ⟨1, _⟩ => show win0_2.index t (1 : Fin 2) * 64 + 1 * h.val = h.val; omega

/-- The value-weight block of every point is the whole matrix. -/
theorem wv_block_apply (c : Dev nD) (t : Fin cfg0.N) (cc : Fin 1024) (h : Fin 64) :
    (iblk m c 3 t : Vec Ideal S1024x64 .f32) (ix2 cc h) = V m c main_arg3 (ix2 cc h) := by
  obtain ⟨-, -, -, -, -, -, -, e0, e1, -⟩ := idx_facts t
  show V m c main_arg3 (((cfg0.win 3).blk t).view.emb (ix2 cc h)) = _
  refine congrArg (V m c main_arg3) (funext fun a => Fin.ext ?_)
  match a with
  | ⟨0, _⟩ => show win0_3.index t (0 : Fin 2) * 1024 + 1 * cc.val = cc.val; omega
  | ⟨1, _⟩ => show win0_3.index t (1 : Fin 2) * 64 + 1 * h.val = h.val; omega

/-- Row p of a point's query tile is row 256·(t mod 8) + p of its batch. -/
theorem tile_apply (c : Dev nD) (t : Fin cfg0.N) (u : Fin 1) (p : Fin 256) (cc : Fin 1024) :
    tileRows (grid0.coords t) (iblk m c 0 t : Vec Ideal S1x2048x1024 .f32) (ix3 u p cc)
      = V m c main_arg0 (ix3 (batchOf t) (rowOf t p) cc) := by
  have hq : (grid0.coords t 1).val = t.val % 8 := (idx_facts t).2.2.2.2.2.2.2.2.2.2.2.2.2.2.2
  have hoff := k0_off1_eq (grid0.coords t)
  have h0 : (k0_off1 (grid0.coords t)) 0 = 0 := by rw [hoff]; rfl
  have h1 : (k0_off1 (grid0.coords t)) 1 = 256 * (grid0.coords t 1).val := by rw [hoff]; rfl
  have h2 : (k0_off1 (grid0.coords t)) 2 = 0 := by rw [hoff]; rfl
  have hu : u.val = 0 := by have := u.isLt; omega
  refine Eq.trans (congrArg (iblk m c 0 t : Vec Ideal S1x2048x1024 .f32)
    (?_ : _ = ix3 (0 : Fin 1) (rowOf t p) cc)) (x_block_apply m c t 0 (rowOf t p) cc)
  funext a; apply Fin.ext
  match a with
  | ⟨0, _⟩ => show (k0_off1 (grid0.coords t)) 0 + 1 * u.val = 0; omega
  | ⟨1, _⟩ => show (k0_off1 (grid0.coords t)) 1 + 1 * p.val = 256 * (t.val % 8) + p.val; omega
  | ⟨2, _⟩ => show (k0_off1 (grid0.coords t)) 2 + 1 * cc.val = cc.val; omega

/-! ## The kept projections, point after point -/

/-- The keys and values a batch's first point keeps are the two projections of its x block. -/
theorem kept_at_first (c : Dev nD) (t : Fin cfg0.N) (h0 : t.val % 8 = 0) :
    (outsAt0 m c t.val t.isLt).2.2.1 = k0_pay5 (iblk m c 0 t) (iblk m c 2 t)
    ∧ (outsAt0 m c t.val t.isLt).2.2.2 = k0_pay6 (iblk m c 0 t) (iblk m c 3 t) := by
  rw [outsAt0_A m c t h0]
  dsimp only
  exact ⟨keys_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t),
    values_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t)⟩

/-- A later point keeps what the point before left. -/
theorem kept_at_later (c : Dev nD) (t : Fin cfg0.N) (h0 : ¬t.val % 8 = 0) :
    (outsAt0 m c t.val t.isLt).2.2.1 = (outsAt0 m c (t.val - 1) (Nat.lt_of_le_of_lt (Nat.sub_le _ _) t.isLt)).2.2.1
    ∧ (outsAt0 m c t.val t.isLt).2.2.2 = (outsAt0 m c (t.val - 1) (Nat.lt_of_le_of_lt (Nat.sub_le _ _) t.isLt)).2.2.2 := by
  rw [outsAt0_B m c t h0]
  dsimp only
  exact ⟨rfl, rfl⟩

/-- The rows of a pair of kept arrays are the key and value projections of batch b. -/
def KeptAre (c : Dev nD) (b : Fin 8) (ks vs : Vec Ideal S2048x64 .bf16) : Prop :=
  (∀ (j : Fin 2048) (h : Fin 64), ks (ix2 j h) = proj (V m c main_arg0) (V m c main_arg2) b j h)
  ∧ (∀ (j : Fin 2048) (h : Fin 64), vs (ix2 j h) = proj (V m c main_arg0) (V m c main_arg3) b j h)

/-- What a batch's first point projects is the batch's key and value projections. -/
theorem fresh_kept (c : Dev nD) (t : Fin cfg0.N) :
    KeptAre m c (batchOf t) (k0_pay5 (iblk m c 0 t) (iblk m c 2 t)) (k0_pay6 (iblk m c 0 t) (iblk m c 3 t)) :=
  ⟨fun j h => (kept_keys_apply _ _ j h).trans (Finset.sum_congr rfl fun cc _ =>
      congrArg₂ (· * ·) (x_block_apply m c t 0 j cc) (wk_block_apply m c t cc h)),
    fun j h => (kept_values_apply _ _ j h).trans (Finset.sum_congr rfl fun cc _ =>
      congrArg₂ (· * ·) (x_block_apply m c t 0 j cc) (wv_block_apply m c t cc h))⟩

/-- After any point the kept arrays are the projections of the point's batch: a first point projects them, a later
    point finds them, and the point before a later point is in the same batch. -/
theorem kept_after (c : Dev nD) : ∀ (n : ℕ) (hn : n < cfg0.N),
    KeptAre m c (batchOf ⟨n, hn⟩) (outsAt0 m c n hn).2.2.1 (outsAt0 m c n hn).2.2.2
  | 0, hn => by
    obtain ⟨e1, e2⟩ := kept_at_first m c ⟨0, hn⟩ rfl
    show KeptAre m c _ (outsAt0 m c (⟨0, hn⟩ : Fin cfg0.N).val _).2.2.1 (outsAt0 m c (⟨0, hn⟩ : Fin cfg0.N).val _).2.2.2
    rw [e1, e2]
    exact fresh_kept m c ⟨0, hn⟩
  | n + 1, hn => by
    by_cases h0 : (n + 1) % 8 = 0
    · obtain ⟨e1, e2⟩ := kept_at_first m c ⟨n + 1, hn⟩ h0
      show KeptAre m c _ (outsAt0 m c (⟨n + 1, hn⟩ : Fin cfg0.N).val _).2.2.1 (outsAt0 m c (⟨n + 1, hn⟩ : Fin cfg0.N).val _).2.2.2
      rw [e1, e2]
      exact fresh_kept m c ⟨n + 1, hn⟩
    · obtain ⟨e1, e2⟩ := kept_at_later m c ⟨n + 1, hn⟩ h0
      show KeptAre m c _ (outsAt0 m c (⟨n + 1, hn⟩ : Fin cfg0.N).val _).2.2.1 (outsAt0 m c (⟨n + 1, hn⟩ : Fin cfg0.N).val _).2.2.2
      rw [e1, e2]
      have hb : batchOf (⟨n + 1, hn⟩ : Fin cfg0.N) = batchOf (⟨n, Nat.lt_of_succ_lt hn⟩ : Fin cfg0.N) :=
        Fin.ext (by show (n + 1) / 8 = n / 8; omega)
      rw [hb]
      exact kept_after c n (Nat.lt_of_succ_lt hn)

/-! ## The two tiles a point stores -/

/-- The probability tile of point t: rows 256·(t mod 8) … of batch t / 8 of the specification's probabilities. -/
def probTile (c : Dev nD) (t : Fin cfg0.N) : Vec Ideal S1x256x2048 .f32 :=
  fun y => prob (V m c main_arg0) (V m c main_arg1) (V m c main_arg2) (batchOf t) (rowOf t (y 1)) (y 2)

/-- The output tile of point t: the same rows of the specification's outputs. -/
def mixTile (c : Dev nD) (t : Fin cfg0.N) : Vec Ideal S1x256x64 .f32 :=
  fun y => mix (V m c main_arg0) (V m c main_arg1) (V m c main_arg2) (V m c main_arg3) (batchOf t) (rowOf t (y 1)) (y 2)

/-- Given kept arrays that are the batch's projections, what the body computes from the point's blocks is the two
    tiles of the specification. -/
theorem tiles_of_kept (c : Dev nD) (t : Fin cfg0.N) (ks vs : Vec Ideal S2048x64 .bf16)
    (hkv : KeptAre m c (batchOf t) ks vs) :
    k0_pay2 (k0_pay7 (tileRows (grid0.coords t) (iblk m c 0 t)) (iblk m c 1 t) ks)
        (k0_pay8 (tileRows (grid0.coords t) (iblk m c 0 t)) (iblk m c 1 t) ks) = probTile m c t
    ∧ k0_pay3 vs (k0_pay7 (tileRows (grid0.coords t) (iblk m c 0 t)) (iblk m c 1 t) ks)
        (k0_pay8 (tileRows (grid0.coords t) (iblk m c 0 t)) (iblk m c 1 t) ks) = mixTile m c t := by
  have hq : ∀ (p : Fin 256) (h : Fin 64),
      ∑ cc : Fin 1024, tileRows (grid0.coords t) (iblk m c 0 t : Vec Ideal S1x2048x1024 .f32) (ix3 (0 : Fin 1) p cc)
        * (iblk m c 1 t : Vec Ideal S1024x64 .f32) (ix2 cc h)
      = proj (V m c main_arg0) (V m c main_arg1) (batchOf t) (rowOf t p) h := fun p h =>
    Finset.sum_congr rfl fun cc _ => congrArg₂ (· * ·) (tile_apply m c t 0 p cc) (wq_block_apply m c t cc h)
  have hn : ∀ (p : Fin 256) (j : Fin 2048),
      k0_pay7 (F := Ideal) (tileRows (grid0.coords t) (iblk m c 0 t)) (iblk m c 1 t) ks (ix2 p j)
        = normed (V m c main_arg0) (V m c main_arg1) (V m c main_arg2) (batchOf t) (rowOf t p) j := fun p j =>
    normed_tile_apply _ _ _ _ _ _ (batchOf t) (rowOf t p) p (hq p) hkv.1 j
  have hm : ∀ p : Fin 256,
      k0_pay8 (F := Ideal) (tileRows (grid0.coords t) (iblk m c 0 t)) (iblk m c 1 t) ks (ix2 p (0 : Fin 1))
        = rowMax (V m c main_arg0) (V m c main_arg1) (V m c main_arg2) (batchOf t) (rowOf t p) := fun p =>
    row_max_apply _ _ _ _ _ _ (batchOf t) (rowOf t p) p (hq p) hkv.1
  constructor
  · funext y
    obtain ⟨u, p, j, rfl⟩ : ∃ (u : Fin 1) (p : Fin 256) (j : Fin 2048), y = ix3 u p j := ⟨y 0, y 1, y 2, eq_ix3 y⟩
    exact stored_probs_apply _ _ _ _ _ (batchOf t) (rowOf t p) p (hn p) (hm p) u j
  · funext y
    obtain ⟨u, p, h, rfl⟩ : ∃ (u : Fin 1) (p : Fin 256) (h : Fin 64), y = ix3 u p h := ⟨y 0, y 1, y 2, eq_ix3 y⟩
    exact stored_outs_apply _ _ _ _ _ _ (batchOf t) (rowOf t p) p (hn p) (hm p) vs hkv.2 u h

/-- What any point leaves in its two output buffers: the two tiles of the specification. -/
theorem tiles_at (c : Dev nD) (t : Fin cfg0.N) :
    (outsAt0 m c t.val t.isLt).2.1 = probTile m c t ∧ (outsAt0 m c t.val t.isLt).1 = mixTile m c t := by
  by_cases h0 : t.val % 8 = 0
  · obtain ⟨e5, e4⟩ := tiles_of_kept m c t _ _ (fresh_kept m c t)
    rw [outsAt0_A m c t h0]
    dsimp only
    exact ⟨(probs_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t)).trans e5,
      (outs_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t)).trans e4⟩
  · have hprev : KeptAre m c (batchOf t)
        (outsAt0 m c (t.val - 1) (Nat.lt_of_le_of_lt (Nat.sub_le _ _) t.isLt)).2.2.1
        (outsAt0 m c (t.val - 1) (Nat.lt_of_le_of_lt (Nat.sub_le _ _) t.isLt)).2.2.2 := by
      have hb : batchOf t = batchOf (⟨t.val - 1, Nat.lt_of_le_of_lt (Nat.sub_le _ _) t.isLt⟩ : Fin cfg0.N) :=
        Fin.ext (by show t.val / 8 = (t.val - 1) / 8; omega)
      rw [hb]
      exact kept_after m c (t.val - 1) _
    obtain ⟨e5, e4⟩ := tiles_of_kept m c t _ _ hprev
    rw [outsAt0_B m c t h0]
    dsimp only
    exact ⟨(probs_later (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) _ _).trans e5,
      (outs_later (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) _ _).trans e4⟩

/-! ## From the blocks to the arrays -/

/-- What point t writes back to the probabilities' array is its block of the specification's array. -/
theorem probs_flushed (c : Dev nD) (t : Fin cfg0.N) :
    (dats m 0 c).flushed 5 t = ((cfg0.win 5).blk t).view.read (Elt Ideal)
      (probArray (V m c main_arg0) (V m c main_arg1) (V m c main_arg2)) := by
  show (cfg0.win 5).cut (grid0.coords t) ((dats m 0 c).after 5 t) = _
  rw [after0_5, (tiles_at m c t).1]
  obtain ⟨-, -, -, -, -, -, -, -, -, -, -, -, e0, e1, e2, -⟩ := idx_facts t
  funext y
  show prob _ _ _ (batchOf t) (rowOf t (y 1)) (y 2)
    = probArray (V m c main_arg0) (V m c main_arg1) (V m c main_arg2) (((cfg0.win 5).blk t).view.emb y)
  unfold probArray
  have hy0 : (y 0).val < 1 := (y 0).isLt
  have hy1 : (y 1).val < 256 := (y 1).isLt
  have hy2 : (y 2).val < 2048 := (y 2).isLt
  have a0 : batchOf t = ((cfg0.win 5).blk t).view.emb y 0 := Fin.ext (by
    show t.val / 8 = win0_5.index t (0 : Fin 3) * 1 + 1 * (y 0).val; omega)
  have a1 : rowOf t (y 1) = ((cfg0.win 5).blk t).view.emb y 1 := Fin.ext (by
    show 256 * (t.val % 8) + (y 1).val = win0_5.index t (1 : Fin 3) * 256 + 1 * (y 1).val; omega)
  have a2 : (y 2 : Fin 2048) = ((cfg0.win 5).blk t).view.emb y 2 := Fin.ext (by
    show (y 2).val = win0_5.index t (2 : Fin 3) * 2048 + 1 * (y 2).val; omega)
  rw [a0, a1, a2]

/-- What point t writes back to the outputs' array is its block of the specification's array. -/
theorem mix_flushed (c : Dev nD) (t : Fin cfg0.N) :
    (dats m 0 c).flushed 4 t = ((cfg0.win 4).blk t).view.read (Elt Ideal)
      (mixArray (V m c main_arg0) (V m c main_arg1) (V m c main_arg2) (V m c main_arg3)) := by
  show (cfg0.win 4).cut (grid0.coords t) ((dats m 0 c).after 4 t) = _
  rw [after0_4, (tiles_at m c t).2]
  obtain ⟨-, -, -, -, -, -, -, -, -, e0, e1, e2, -⟩ := idx_facts t
  funext y
  show mix _ _ _ _ (batchOf t) (rowOf t (y 1)) (y 2)
    = mixArray (V m c main_arg0) (V m c main_arg1) (V m c main_arg2) (V m c main_arg3) (((cfg0.win 4).blk t).view.emb y)
  unfold mixArray
  have hy0 : (y 0).val < 1 := (y 0).isLt
  have hy1 : (y 1).val < 256 := (y 1).isLt
  have hy2 : (y 2).val < 64 := (y 2).isLt
  have a0 : batchOf t = ((cfg0.win 4).blk t).view.emb y 0 := Fin.ext (by
    show t.val / 8 = win0_4.index t (0 : Fin 3) * 1 + 1 * (y 0).val; omega)
  have a1 : rowOf t (y 1) = ((cfg0.win 4).blk t).view.emb y 1 := Fin.ext (by
    show 256 * (t.val % 8) + (y 1).val = win0_4.index t (1 : Fin 3) * 256 + 1 * (y 1).val; omega)
  have a2 : (y 2 : Fin 64) = ((cfg0.win 4).blk t).view.emb y 2 := Fin.ext (by
    show (y 2).val = win0_4.index t (2 : Fin 3) * 64 + 1 * (y 2).val; omega)
  rw [a0, a1, a2]

/-- The point whose blocks hold row r of batch b. -/
def pointOf (b : Fin 8) (r : Fin 2048) : Fin cfg0.N :=
  ⟨8 * b.val + r.val / 256, by rw [show cfg0.N = 64 from N_0]; have := b.isLt; have := r.isLt; omega⟩

/-- Every index of the probabilities' array lies in some point's block. -/
theorem probs_cover (i : S8x2048x2048.Idx) :
    ∃ t : Fin cfg0.N, (cfg0.win 5).flush t = true ∧ i ∈ ((cfg0.win 5).blk t).view.set := by
  refine ⟨pointOf (i 0) (i 1), flush0_5 _, ?_⟩
  obtain ⟨-, -, -, -, -, -, -, -, -, -, -, -, e0, e1, e2, -⟩ := idx_facts (pointOf (i 0) (i 1))
  have hv : (pointOf (i 0) (i 1)).val = 8 * (i 0).val + (i 1).val / 256 := rfl
  have h0 : (i 0).val < 8 := (i 0).isLt
  have h1 : (i 1).val < 2048 := (i 1).isLt
  have h2 : (i 2).val < 2048 := (i 2).isLt
  show i ∈ ((View.whole main_v0_1).slice (win0_5.rect (pointOf (i 0) (i 1)))).set
  rw [View.set_slice_whole, Rect.mem_set_unit]
  intro a
  match a with
  | ⟨0, _⟩ =>
    show win0_5.index (pointOf (i 0) (i 1)) (0 : Fin 3) * 1 ≤ (i 0).val
      ∧ (i 0).val < win0_5.index (pointOf (i 0) (i 1)) (0 : Fin 3) * 1 + 1
    omega
  | ⟨1, _⟩ =>
    show win0_5.index (pointOf (i 0) (i 1)) (1 : Fin 3) * 256 ≤ (i 1).val
      ∧ (i 1).val < win0_5.index (pointOf (i 0) (i 1)) (1 : Fin 3) * 256 + 256
    omega
  | ⟨2, _⟩ =>
    show win0_5.index (pointOf (i 0) (i 1)) (2 : Fin 3) * 2048 ≤ (i 2).val
      ∧ (i 2).val < win0_5.index (pointOf (i 0) (i 1)) (2 : Fin 3) * 2048 + 2048
    omega

/-- Every index of the outputs' array lies in some point's block. -/
theorem mix_cover (i : S8x2048x64.Idx) :
    ∃ t : Fin cfg0.N, (cfg0.win 4).flush t = true ∧ i ∈ ((cfg0.win 4).blk t).view.set := by
  refine ⟨pointOf (i 0) (i 1), flush0_4 _, ?_⟩
  obtain ⟨-, -, -, -, -, -, -, -, -, e0, e1, e2, -⟩ := idx_facts (pointOf (i 0) (i 1))
  have hv : (pointOf (i 0) (i 1)).val = 8 * (i 0).val + (i 1).val / 256 := rfl
  have h0 : (i 0).val < 8 := (i 0).isLt
  have h1 : (i 1).val < 2048 := (i 1).isLt
  have h2 : (i 2).val < 64 := (i 2).isLt
  show i ∈ ((View.whole main_v0_0).slice (win0_4.rect (pointOf (i 0) (i 1)))).set
  rw [View.set_slice_whole, Rect.mem_set_unit]
  intro a
  match a with
  | ⟨0, _⟩ =>
    show win0_4.index (pointOf (i 0) (i 1)) (0 : Fin 3) * 1 ≤ (i 0).val
      ∧ (i 0).val < win0_4.index (pointOf (i 0) (i 1)) (0 : Fin 3) * 1 + 1
    omega
  | ⟨1, _⟩ =>
    show win0_4.index (pointOf (i 0) (i 1)) (1 : Fin 3) * 256 ≤ (i 1).val
      ∧ (i 1).val < win0_4.index (pointOf (i 0) (i 1)) (1 : Fin 3) * 256 + 256
    omega
  | ⟨2, _⟩ =>
    show win0_4.index (pointOf (i 0) (i 1)) (2 : Fin 3) * 64 ≤ (i 2).val
      ∧ (i 2).val < win0_4.index (pointOf (i 0) (i 1)) (2 : Fin 3) * 64 + 64
    omega

/-- The probabilities' array after the run. -/
theorem probs_final (c : Dev nD) : (dats m 0 c).arrAt 5 cfg0.N
    = probArray (V m c main_arg0) (V m c main_arg1) (V m c main_arg2) :=
  (dats m 0 c).arrAt_eq_of_cover 5 _ (fun t _ => probs_flushed m c t) probs_cover

/-- The outputs' array after the run. -/
theorem mix_final (c : Dev nD) : (dats m 0 c).arrAt 4 cfg0.N
    = mixArray (V m c main_arg0) (V m c main_arg1) (V m c main_arg2) (V m c main_arg3) :=
  (dats m 0 c).arrAt_eq_of_cover 4 _ (fun t _ => mix_flushed m c t) mix_cover

/-- The kernel's run: every weakly fair execution ends with the two result arrays at the specification's arrays of the
    argument arrays, the arguments unchanged. -/
theorem run : θ_run defs (onTc (τ := τ) (main (F := Ideal))) ⟨m, fun _ => 0, ρ⟩ fun r => ∀ c : Dev nD,
      r.2.mem ((c : Thread nD τ).loc main_v0_0)
        = mixArray (m ((c : Thread nD τ).loc main_arg0)) (m ((c : Thread nD τ).loc main_arg1))
            (m ((c : Thread nD τ).loc main_arg2)) (m ((c : Thread nD τ).loc main_arg3))
      ∧ r.2.mem ((c : Thread nD τ).loc main_v0_1)
        = probArray (m ((c : Thread nD τ).loc main_arg0)) (m ((c : Thread nD τ).loc main_arg1))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (mix_final m c), (h c).2.1.trans (probs_final m c), (h c).2.2⟩)
    (run_blocks m ρ)

end Cert.KernelIdeal.Whole

end
-- ==== Proof.LibHostRowMax.lean ====
/-
  The host's maximum over the last axis of a three-axis array, read on the extended reals.

  A reduction with a maximum body over the last axis of an [a, b, n] array is, at (p, q), the fold of max from the
  initial value over the n entries (p, q, d), in any order: max is commutative and associative.  The extents are
  variables.
-/
import Idealize.ShloMosaic.Lib.ValueIdx
import Idealize.ShloMosaic.PureOps.Ideal.Laws

noncomputable section

namespace Cert.HostRowMax

open Idealize.ShloMosaic Idealize.ShloMosaic.ValueIdx

/-- The reduced index (p, q) with coordinate d put back on the last axis is (p, q, d). -/
theorem lift_last {a b n : ℕ} (h : (⟨3, ![a, b, n]⟩ : Shape).Reduces [2] ⟨2, ![a, b]⟩) (p : Fin a) (q : Fin b)
    (d : Fin ((⟨3, ![a, b, n]⟩ : Shape).size 2)) :
    h.lift (ix2 p q) d = ix3 p q (⟨d.val, d.isLt⟩ : Fin n) := by
  funext ax; apply Fin.ext
  fin_cases ax <;> rfl

/-- The host's reduction with a maximum body over the last axis of an [a, b, n] array of extended reals: at (p, q) the
    fold of max from the initial value over the entries (p, q, d). -/
theorem host_max_over_last_apply {a b n : ℕ} (x : FVec Ideal ⟨3, ![a, b, n]⟩ .f32) (init : FVec Ideal ⟨0, ![]⟩ .f32)
    (h' : (⟨3, ![a, b, n]⟩ : Shape).ReducesTo [2] ⟨2, ![a, b]⟩) (h : (⟨3, ![a, b, n]⟩ : Shape).Reduces [2] ⟨2, ![a, b]⟩)
    (hu : 0 < (⟨0, ![]⟩ : Shape).numel) (p : Fin a) (q : Fin b) :
    Host.reduce FloatOps.maximumf x init h' hu (ix2 p q)
      = (Finset.univ : Finset (Fin n)).fold max (init ix0) (fun d => x (ix3 p q d)) := by
  rw [Host.reduce_eq_fold_single FloatOps.maximumf x init h' h hu, eq_ix0 (Shape.Idx.first hu)]
  have hf : (x ∘ h.lift (ix2 p q)) = fun d : Fin n => x (ix3 p q d) :=
    funext fun d => congrArg x (lift_last h p q d)
  exact congrArg (fun f => Finset.fold max (init ix0) f (Finset.univ : Finset (Fin n))) hf

end Cert.HostRowMax

end
-- ==== Proof.RefRead.lean ====
/-
  The reference program, stage by stage, is the specification.

  Read at coordinates (b, i, j), each operation of the reference is the specification's quantity of the same name:
  its three projections are Σ_c x (b, t, c) · W (c, h); its batched product, scaled by 1/8, the score; the sum over the
  last axis, started from zero and divided by 2048, the row mean; and so on down to the quotient by the square root,
  the maximum (a fold of max over the row, started from −∞, and then once more the maximum with −∞, which changes
  nothing), the exponentials, their row sums, the softmax, and the product with the value projection.  A sum that
  starts from the zero word starts from 0.
-/
import proofs.«149251_j35802847380251_2_alg».proof.Proof.Gen.ReferenceIdeal.Read
import proofs.«149251_j35802847380251_2_alg».proof.Proof.Spec
import proofs.«149251_j35802847380251_2_alg».proof.Proof.LibHostRowMax

noncomputable section

open scoped BigOperators

namespace Cert.ReferenceIdeal.RefValue

open Cert.ReferenceIdeal Cert.ReferenceIdeal.Gen Cert.ReferenceIdeal.Read
open Idealize.ShloMosaic Idealize.ShloMosaic.ValueIdx Cert.NormedAttention

/-- Two indices of a three-axis array with the same coordinates are one index. -/
local macro "same3" : term =>
  `(funext fun a => Fin.ext (by match a with | ⟨0, _⟩ => rfl | ⟨1, _⟩ => rfl | ⟨2, _⟩ => rfl))
/-- Two indices of a two-axis array with the same coordinates are one index. -/
local macro "same2" : term =>
  `(funext fun a => Fin.ext (by match a with | ⟨0, _⟩ => rfl | ⟨1, _⟩ => rfl))

variable (x0 : (⟨S8x2048x1024, .f32⟩ : BufTy).Contents (Elt Ideal))
variable (x1 x2 x3 : (⟨S1024x64, .f32⟩ : BufTy).Contents (Elt Ideal))

/-- A projection at (b, t, h). -/
theorem proj_apply (w : (⟨S1024x64, .f32⟩ : BufTy).Contents (Elt Ideal)) (b : Fin 8) (t : Fin 2048) (h : Fin 64) :
    val_main_v0 (F := Ideal) x0 w (ix3 b t h) = proj x0 w b t h :=
  (val_main_v0_apply x0 w _).trans (Finset.sum_congr rfl fun k _ =>
    congrArg₂ (· * ·) (congrArg x0 same3) (congrArg w same2))

/-- The batched product of the query and key projections at (b, i, j). -/
theorem product_apply (b : Fin 8) (i j : Fin 2048) :
    val_main_v3 (F := Ideal) x0 x1 x2 (ix3 b i j) = ∑ h : Fin 64, proj x0 x1 b i h * proj x0 x2 b j h :=
  (val_main_v3_apply x0 x1 x2 _).trans (Finset.sum_congr rfl fun h _ => congrArg₂ (· * ·)
    ((congrArg (val_main_v0 (F := Ideal) x0 x1) same3).trans (proj_apply x0 x1 b i h))
    ((congrArg (val_main_v0 (F := Ideal) x0 x2) same3).trans (proj_apply x0 x2 b j h)))

/-- The scaled score at (b, i, j). -/
theorem score_apply (b : Fin 8) (i j : Fin 2048) :
    val_main_v5 (F := Ideal) x0 x1 x2 (ix3 b i j) = score x0 x1 x2 b i j :=
  congrArg₂ (· * ·) (product_apply x0 x1 x2 b i j) ((val_main_v4_apply _).trans rfl)

/-- The row mean, kept as a column, at (b, i, 0). -/
theorem mean_apply (b : Fin 8) (i : Fin 2048) (u : Fin 1) :
    val_main_v9 (F := Ideal) x0 x1 x2 (ix3 b i u) = mean x0 x1 x2 b i := by
  refine congrArg₂ Ideal.div ?_ ((val_main_v8_apply _).trans rfl)
  refine (val_main_v7_apply x0 x1 x2 _).trans ((val_main_v6_apply x0 x1 x2 _).trans ?_)
  refine (congrArg (· + _) Ideal.ofBits_zero_f32).trans ((zero_add _).trans ?_)
  exact Finset.sum_congr rfl fun k _ =>
    (congrArg (val_main_v5 (F := Ideal) x0 x1 x2) same3).trans (score_apply x0 x1 x2 b i k)

/-- The centred score at (b, i, j). -/
theorem centred_apply (b : Fin 8) (i j : Fin 2048) :
    val_main_v11 (F := Ideal) x0 x1 x2 (ix3 b i j) = centred x0 x1 x2 b i j :=
  congrArg₂ (· - ·) (score_apply x0 x1 x2 b i j)
    ((val_main_v10_apply x0 x1 x2 _).trans
      ((congrArg (val_main_v9 (F := Ideal) x0 x1 x2) same3).trans (mean_apply x0 x1 x2 b i (0 : Fin 1))))

/-- The row variance, kept as a column, at (b, i, 0). -/
theorem variance_apply (b : Fin 8) (i : Fin 2048) (u : Fin 1) :
    val_main_v16 (F := Ideal) x0 x1 x2 (ix3 b i u) = variance x0 x1 x2 b i := by
  refine congrArg₂ Ideal.div ?_ ((val_main_v15_apply _).trans rfl)
  refine (val_main_v14_apply x0 x1 x2 _).trans ((val_main_v13_apply x0 x1 x2 _).trans ?_)
  refine (congrArg (· + _) Ideal.ofBits_zero_f32).trans ((zero_add _).trans ?_)
  exact Finset.sum_congr rfl fun k _ =>
    (congrArg (val_main_v12 (F := Ideal) x0 x1 x2) same3).trans
      (congrArg₂ (· * ·) (centred_apply x0 x1 x2 b i k) (centred_apply x0 x1 x2 b i k))

/-- The normed score at (b, i, j). -/
theorem normed_apply (b : Fin 8) (i j : Fin 2048) :
    val_main_v21 (F := Ideal) x0 x1 x2 (ix3 b i j) = normed x0 x1 x2 b i j := by
  refine congrArg₂ Ideal.div (centred_apply x0 x1 x2 b i j) ?_
  refine (val_main_v20_apply x0 x1 x2 _).trans ?_
  refine (congrArg (val_main_v19 (F := Ideal) x0 x1 x2) (same3 : _ = ix3 b i (0 : Fin 1))).trans ?_
  exact congrArg Ideal.sqrt (congrArg₂ (· + ·) (variance_apply x0 x1 x2 b i (0 : Fin 1)) ((val_main_v17_apply _).trans rfl))

/-- The row maximum at (b, i): the reduction over the last axis is the fold of max over the row, and the further
    maximum with −∞ leaves it. -/
theorem rowMax_apply (b : Fin 8) (i : Fin 2048) :
    val_main_v24 (F := Ideal) x0 x1 x2 (ix2 b i) = rowMax x0 x1 x2 b i := by
  have hfold : val_main_v22 (F := Ideal) x0 x1 x2 (ix2 b i) = rowMax x0 x1 x2 b i := by
    unfold val_main_v22 rowMax
    exact (Cert.HostRowMax.host_max_over_last_apply (val_main_v21 (F := Ideal) x0 x1 x2) (val_main_cst_5 (F := Ideal)) _
      (by decide) _ b i).trans (Finset.fold_congr fun d _ => normed_apply x0 x1 x2 b i d)
  have h23 : val_main_v23 (F := Ideal) (ix2 b i) = negInf := (val_main_v23_apply _).trans rfl
  rw [val_main_v24_apply, hfold, h23, Ideal.maximumf_def]
  exact max_negInf _

/-- The exponential at (b, i, j). -/
theorem weight_apply (b : Fin 8) (i j : Fin 2048) :
    val_main_v28 (F := Ideal) x0 x1 x2 (ix3 b i j) = weight x0 x1 x2 b i j := by
  refine congrArg Ideal.exp (congrArg₂ (· - ·) (normed_apply x0 x1 x2 b i j) ?_)
  refine (val_main_v26_apply x0 x1 x2 _).trans ((val_main_v25_apply x0 x1 x2 _).trans ?_)
  exact (congrArg (val_main_v24 (F := Ideal) x0 x1 x2) same2).trans (rowMax_apply x0 x1 x2 b i)

/-- The softmax at (b, i, j): the first result. -/
theorem prob_apply (b : Fin 8) (i j : Fin 2048) :
    val_main_v32 (F := Ideal) x0 x1 x2 (ix3 b i j) = prob x0 x1 x2 b i j := by
  refine congrArg₂ Ideal.div (weight_apply x0 x1 x2 b i j) ?_
  refine (val_main_v31_apply x0 x1 x2 _).trans ((val_main_v30_apply x0 x1 x2 _).trans
    ((val_main_v29_apply x0 x1 x2 _).trans ?_))
  refine (congrArg (· + _) Ideal.ofBits_zero_f32).trans ((zero_add _).trans ?_)
  exact Finset.sum_congr rfl fun k _ =>
    (congrArg (val_main_v28 (F := Ideal) x0 x1 x2) same3).trans (weight_apply x0 x1 x2 b i k)

/-- The attention output at (b, i, h): the second result. -/
theorem mix_apply (b : Fin 8) (i : Fin 2048) (h : Fin 64) :
    val_main_v33 (F := Ideal) x0 x1 x2 x3 (ix3 b i h) = mix x0 x1 x2 x3 b i h :=
  (val_main_v33_apply x0 x1 x2 x3 _).trans (Finset.sum_congr rfl fun k _ => congrArg₂ (· * ·)
    ((congrArg (val_main_v32 (F := Ideal) x0 x1 x2) same3).trans (prob_apply x0 x1 x2 b i k))
    ((congrArg (val_main_v0 (F := Ideal) x0 x3) same3).trans (proj_apply x0 x3 b k h)))

/-- The reference's first result is the specification's array of probabilities. -/
theorem probs_array_eq : val_main_v32 (F := Ideal) x0 x1 x2 = probArray x0 x1 x2 :=
  funext fun idx => by
    obtain ⟨b, i, j, rfl⟩ : ∃ (b : Fin 8) (i j : Fin 2048), idx = ix3 b i j := ⟨idx 0, idx 1, idx 2, eq_ix3 idx⟩
    exact prob_apply x0 x1 x2 b i j

/-- The reference's second result is the specification's array of outputs. -/
theorem outs_array_eq : val_main_v33 (F := Ideal) x0 x1 x2 x3 = mixArray x0 x1 x2 x3 :=
  funext fun idx => by
    obtain ⟨b, i, h, rfl⟩ : ∃ (b : Fin 8) (i : Fin 2048) (h : Fin 64), idx = ix3 b i h := ⟨idx 0, idx 1, idx 2, eq_ix3 idx⟩
    exact mix_apply x0 x1 x2 x3 b i h

end Cert.ReferenceIdeal.RefValue

end
-- ==== Proof.lean ====
/-
  A fused attention kernel against its plain reference, on the extended reals.

  Both programs take x [8, 2048, 1024] and three weight matrices [1024, 64], and return the attention output
  [8, 2048, 64] and the attention probabilities [8, 2048, 2048] of one head whose scores are, row by row, centred and
  divided by their standard deviation before the softmax (Proof/Spec.lean writes the function out).

  The kernel works tile by tile: a grid of 8 batches × 8 query tiles of 256 rows; a batch's first point projects the
  keys and values once and keeps them for the seven points that follow; every point projects its own queries, forms
  the 256 × 2048 scores against all keys, normalises, takes the softmax, and multiplies by the values.  The reference
  does the same on whole arrays.  Read on the extended reals, roundings to a narrower format are the identity and a
  sum has no order, so the two differ in two places only: the kernel multiplies the centred scores by the reciprocal
  square root of (variance + ε) where the reference divides by the square root, and the reference takes the maximum of
  −∞ and the row maximum where the kernel takes the row maximum.  The first is an identity wherever the quantity under
  the root is positive, +∞ included, and it always is (a mean of squares is non-negative and ε > 0); the second is an
  identity outright.  No finiteness of the inputs is used.

  Proof/Payload.lean reads the kernel body's arithmetic at an index, Proof/Pieces.lean what one run of the body leaves
  in its buffers, Proof/KernelValue.lean the induction over the grid points and the passage from blocks to arrays,
  Proof/RefRead.lean the reference stage by stage.  The frames of the two kernel programs are the generated ones; the
  reference's frame is its generated run with the results dropped.  The idealization rewrote nothing, so the claim
  that it preserves the kernel is the trivial one.
-/
import proofs.«149251_j35802847380251_2_alg».proof.Defs
import proofs.«149251_j35802847380251_2_alg».proof.Proof.Gen.Kernel
import proofs.«149251_j35802847380251_2_alg».proof.Proof.Gen.Kernel.Frame
import proofs.«149251_j35802847380251_2_alg».proof.Proof.Gen.KernelIdeal
import proofs.«149251_j35802847380251_2_alg».proof.Proof.Gen.KernelIdeal.Frame
import proofs.«149251_j35802847380251_2_alg».proof.Proof.Gen.ReferenceIdeal
import proofs.«149251_j35802847380251_2_alg».proof.Proof.Gen.ReferenceIdeal.Run
import proofs.«149251_j35802847380251_2_alg».proof.Proof.Gen.Pre_finite_inputs
import proofs.«149251_j35802847380251_2_alg».proof.Proof.Imports
import proofs.«149251_j35802847380251_2_alg».proof.Proof.KernelValue
import proofs.«149251_j35802847380251_2_alg».proof.Proof.RefRead
import Idealize.ShloMosaic.Adequacy
import Idealize.ShloMosaic.Init

noncomputable section

namespace Cert.Proof

open Idealize.ShloMosaic Idealize.ShloMosaic.TcCoe Idealize.SL.Sem Cert.NormedAttention

/-- The kernel as printed runs and leaves its arguments as they were. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the reference: its run, with the two results dropped. -/
theorem frame_reference : Cert.frame_ReferenceIdeal := fun m ρ _ =>
  (θ_run Cert.ReferenceIdeal.defs _ _).mono (fun _ h c => (h c).2.2)
    (Cert.ReferenceIdeal.Value.run (F := Ideal) m ρ)

/-- The idealization rewrote no operation. -/
theorem preserves : Cert.preserves_Kernel_KernelIdeal := trivial

/-- From memories that agree on the arguments both programs end with the attention outputs and the attention
    probabilities of those arguments: the kernel's two result arrays are the specification's arrays, and so are the
    reference's. -/
theorem algebraic : Cert.algebraic_KernelIdeal_ReferenceIdeal := by
  intro m ρ m' ρ' _ hagree
  refine ⟨fun c => mixArray (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3)),
    fun c => probArray (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v33_eq, (hagree c).1, (hagree c).2.1, (hagree c).2.2.1,
      (hagree c).2.2.2]
    exact Cert.ReferenceIdeal.RefValue.outs_array_eq _ _ _ _
  · rw [(h c).2.1, Cert.ReferenceIdeal.Read.val_main_v32_eq, (hagree c).1, (hagree c).2.1, (hagree c).2.2.1]
    exact Cert.ReferenceIdeal.RefValue.probs_array_eq _ _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
